-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x800000 : Shape := ⟨2, ![2, 800000]⟩
abbrev S5x256 : Shape := ⟨2, ![5, 256]⟩
abbrev S256 : Shape := ⟨1, ![256]⟩
abbrev S256x256 : Shape := ⟨2, ![256, 256]⟩
abbrev S256x5 : Shape := ⟨2, ![256, 5]⟩
abbrev S5 : Shape := ⟨1, ![5]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S5x256 : S_.BroadcastsInDim S5x256 (![] : Fin 0 → Fin S5x256.rank)
  reducesTo_S5x256_S_d0_1 : S5x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg8 : FVec F S256x5 .f32) (main_arg9 : FVec F S5 .f32) (main_v33 : IVec S_ 1) : IVec S_ 1 :=
  let main_v34 : FVec F S256x5 .f32 := Host.absf main_arg8
  let main_cst_12 : FVec F S_ .f32 := constant S_ .f32 0x7F800000#32
  let main_v35 : FVec F S256x5 .f32 := broadcastInDim S256x5 ![] bcast_S_S256x5 main_cst_12
  let main_v36 : IVec S256x5 1 := cmpf .olt main_v34 main_v35
  let main_c_13 : IVec S_ 1 := constantI S_ 1 1#1
  let main_v37 : IVec S_ 1 := (fun x v => Host.reduce IntOp.andi x v reducesTo_S256x5_S_d0_1 h_S_) main_v36 main_c_13
  let main_v38 : IVec S_ 1 := andi main_v33 main_v37
  let main_v39 : FVec F S5 .f32 := Host.absf main_arg9
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  main_v43

def fn_part1 {F : FTy → Type} [FloatOps F] (main_arg5 : FVec F S256x256 .f32) (main_arg6 : FVec F S256 .f32) (main_arg7 : FVec F S256x256 .f32) (main_arg8 : FVec F S256x5 .f32) (main_arg9 : FVec F S5 .f32) (main_v13 : IVec S_ 1) (main_v16 : IVec S5x256 1) : IVec S_ 1 :=
  let main_c_5 : IVec S_ 1 := constantI S_ 1 1#1
  let main_v17 : IVec S_ 1 := (fun x v => Host.reduce IntOp.andi x v reducesTo_S5x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_v33

def fn {F : FTy → Type} [FloatOps F] (main_arg0 : FVec F S50000x5 .f32) (main_arg1 : IVec S2x800000 32) (main_arg2 : FVec F S5x256 .f32) (main_arg3 : FVec F S256 .f32) (main_arg4 : FVec F S5x256 .f32) (main_arg5 : FVec F S256x256 .f32) (main_arg6 : FVec F S256 .f32) (main_arg7 : FVec F S256x256 .f32) (main_arg8 : FVec F S256x5 .f32) (main_arg9 : FVec F S5 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S5x256 .f32 := Host.absf main_arg2
  let main_cst_0 : FVec F S_ .f32 := constant S_ .f32 0x7F800000#32
  let main_v5 : FVec F S5x256 .f32 := broadcastInDim S5x256 ![] bcast_S_S5x256 main_cst_0
  let main_v6 : IVec S5x256 1 := cmpf .olt main_v4 main_v5
  let main_c_1 : IVec S_ 1 := constantI S_ 1 1#1
  let main_v7 : IVec S_ 1 := (fun x v => Host.reduce IntOp.andi x v reducesTo_S5x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S5x256 .f32 := Host.absf main_arg4
  let main_cst_4 : FVec F S_ .f32 := constant S_ .f32 0x7F800000#32
  let main_v15 : FVec F S5x256 .f32 := broadcastInDim S5x256 ![] bcast_S_S5x256 main_cst_4
  let main_v16 : IVec S5x256 1 := cmpf .olt main_v14 main_v15
  fn_part1 (F := F) main_arg5 main_arg6 main_arg7 main_arg8 main_arg9 main_v13 main_v16
-- ==== Kernel.lean ====
abbrev S50000x5 : Shape := ⟨2, ![50000, 5]⟩
abbrev S2x800000 : Shape := ⟨2, ![2, 800000]⟩
abbrev S5x256 : Shape := ⟨2, ![5, 256]⟩
abbrev S256 : Shape := ⟨1, ![256]⟩
abbrev S256x256 : Shape := ⟨2, ![256, 256]⟩
abbrev S256x5 : Shape := ⟨2, ![256, 5]⟩
abbrev S5 : Shape := ⟨1, ![5]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x5 : Shape := ⟨2, ![800000, 5]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S1000x5 : Shape := ⟨2, ![1000, 5]⟩
abbrev S1000x256 : Shape := ⟨2, ![1000, 256]⟩
abbrev S800000x256 : Shape := ⟨2, ![800000, 256]⟩
abbrev S1x5 : Shape := ⟨2, ![1, 5]⟩
abbrev S1000 : Shape := ⟨1, ![1000]⟩
abbrev S1000x1 : Shape := ⟨2, ![1000, 1]⟩

abbrev nBuf : Space → Nat
  | .hbm => 70
  | .vmem => 24
  | .smem => 0
  | _ => 0

abbrev bufTy : (tb : Table) → Fin (tcTables nBuf tb) → BufTy
  | .hbm, ⟨0, _⟩ => ⟨S50000x5, .f32⟩
  | .hbm, ⟨1, _⟩ => ⟨S2x800000, .i32⟩
  | .hbm, ⟨2, _⟩ => ⟨S5x256, .f32⟩
  | .hbm, ⟨3, _⟩ => ⟨S256, .f32⟩
  | .hbm, ⟨4, _⟩ => ⟨S5x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x5, .f32⟩
  | .hbm, ⟨9, _⟩ => ⟨S5, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x5, .f32⟩
  | .hbm, ⟨23, _⟩ => ⟨S_, .f32⟩
  | .hbm, ⟨24, _⟩ => ⟨S50000x5, .f32⟩
  | .hbm, ⟨25, _⟩ => ⟨S800000x1, .i32⟩
  | .hbm, ⟨26, _⟩ => ⟨S50000x5, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x5, .f32⟩
  | .hbm, ⟨38, _⟩ => ⟨S50000x5, .f32⟩
  | .hbm, ⟨39, _⟩ => ⟨S1x256, .f32⟩
  | .hbm, ⟨40, _⟩ => ⟨S50000x256, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S1x5, .f32⟩
  | .hbm, ⟨69, _⟩ => ⟨S50000x5, .f32⟩
  | .local _ .vmem, ⟨0, _⟩ => ⟨S1000x5, .f32⟩
  | .local _ .vmem, ⟨1, _⟩ => ⟨S1000x5, .f32⟩
  | .local _ .vmem, ⟨2, _⟩ => ⟨S1000x5, .f32⟩
  | .local _ .vmem, ⟨3, _⟩ => ⟨S1000x5, .f32⟩
  | .local _ .vmem, ⟨4, _⟩ => ⟨S5x256, .f32⟩
  | .local _ .vmem, ⟨5, _⟩ => ⟨S5x256, .f32⟩
  | .local _ .vmem, ⟨6, _⟩ => ⟨S1x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S256x5, .f32⟩
  | .local _ .vmem, ⟨21, _⟩ => ⟨S1x5, .f32⟩
  | .local _ .vmem, ⟨22, _⟩ => ⟨S1000x5, .f32⟩
  | .local _ .vmem, ⟨23, _⟩ => ⟨S1000x5, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x5 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x5 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x5 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x5 : S_.BroadcastsInDim S50000x5 (![] : Fin 0 → Fin S50000x5.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x5_0_1 : S50000x1.BroadcastsInDim S50000x5 (![0, 1] : Fin 2 → Fin S50000x5.rank)
  shapeCasts_S256_S1x256 : S256.ShapeCasts S1x256
  inb_S1000x5_S1000x5_0_0 : ∀ a, (![0, 0] : Fin 2 → Nat) a + S1000x5.size a ≤ S1000x5.size a
  h_S1000x5 : 0 < S1000x5.numel
  shapeCasts_S1000x5_S1000x5 : S1000x5.ShapeCasts S1000x5
  bitsLt_bf16_f32 : FTy.bits .bf16 < FTy.bits .f32
  inb_S5x256_S5x256_0_0 : ∀ a, (![0, 0] : Fin 2 → Nat) a + S5x256.size a ≤ S5x256.size a
  h_S5x256 : 0 < S5x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S5_S1x5 : S5.ShapeCasts S1x5
  inb_S256x5_S256x5_0_0 : ∀ a, (![0, 0] : Fin 2 → Nat) a + S256x5.size a ≤ S256x5.size a
  h_S256x5 : 0 < S256x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S1000x5 : S1x5.Broadcasts S1000x5
  reduces_S1000x5_S1000 : S1000x5.Reduces [1] S1000
  shapeCasts_S1000_S1000x1 : S1000.ShapeCasts S1000x1
  broadcasts_S1000x1_S1000x5 : S1000x1.Broadcasts S1000x5
  gather_S50000x5_S800000x1_S800000x5_1_0_n_n_0_1_15_wf : GatherDims.WF S50000x5 S800000x1 S800000x5 [1] [0] [] [0] [] 1 ![1, 5]
  scatter_S50000x5_S800000x1_S800000x5_1_0_0_1_wf : ScatterDims.WF S50000x5 S800000x1 S800000x5 [1] [0] [0] 1
  scatter_S50000_S800000x1_S800000_n_0_0_1_wf : ScatterDims.WF S50000 S800000x1 S800000 [] [0] [0] 1
  dot_S1000x5_S5x256_S1000x256_1_0_0_1_n_n_wf : DotDims.WF S1000x5 S5x256 S1000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1000x256_S256x256_S1000x256_1_0_0_1_n_n_wf : DotDims.WF S1000x256 S256x256 S1000x256 [1] [0] [0] [1] [] []
  dot_S1000x256_S256x5_S1000x5_1_0_0_1_n_n_wf : DotDims.WF S1000x256 S256x5 S1000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x5.size a ≤ S50000x5.size a
  hwx0_0 : ∀ i : grid0.Coords, EltTy.bits .f32 = 32 ∨ (Rect.block (s := S50000x5) S1000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x5.size a ≤ S50000x5.size a
  hwx0_1 : ∀ i : grid0.Coords, EltTy.bits .f32 = 32 ∨ (Rect.block (s := S50000x5) S1000x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x256.size a ≤ S5x256.size a
  hwx0_2 : ∀ i : grid0.Coords, EltTy.bits .f32 = 32 ∨ (Rect.block (s := S5x256) S5x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x256.size a ≤ S5x256.size a
  hwx0_3 : ∀ i : grid0.Coords, EltTy.bits .f32 = 32 ∨ (Rect.block (s := S5x256) S5x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S50000x256.size a
  hwx0_5 : ∀ i : grid0.Coords, EltTy.bits .f32 = 32 ∨ (Rect.block (s := S50000x256) S1000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S50000x256.size a
  hwx1_1 : ∀ i : grid1.Coords, EltTy.bits .f32 = 32 ∨ (Rect.block (s := S50000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x256.size a ≤ S50000x256.size a
  hwx1_5 : ∀ i : grid1.Coords, EltTy.bits .f32 = 32 ∨ (Rect.block (s := S50000x256) S1000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x5.size a ≤ S256x5.size a
  hwx2_1 : ∀ i : grid2.Coords, EltTy.bits .f32 = 32 ∨ (Rect.block (s := S256x5) S256x5.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x5.size a ≤ S1x5.size a
  hwx2_2 : ∀ i : grid2.Coords, EltTy.bits .f32 = 32 ∨ (Rect.block (s := S1x5) S1x5.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x5.size a ≤ S50000x5.size a
  hwx2_3 : ∀ i : grid2.Coords, EltTy.bits .f32 = 32 ∨ (Rect.block (s := S50000x5) S1000x5.size (cc2_transform_3 i) (hinb2_3 i)).WholeWords (EltTy.packing .f32)

variable [Facts₀]

def gather_S50000x5_S800000x1_S800000x5_1_0_n_n_0_1_15 : GatherDims S50000x5 S800000x1 S800000x5 where
  offsetDims := [1]
  collapsedSliceDims := [0]
  operandBatchingDims := []
  startIndicesBatchingDims := []
  startIndexMap := [0]
  indexVectorDim := 1
  sliceSizes := ![1, 5]
  wf := gather_S50000x5_S800000x1_S800000x5_1_0_n_n_0_1_15_wf
def scatter_S50000x5_S800000x1_S800000x5_1_0_0_1 : ScatterDims S50000x5 S800000x1 S800000x5 where
  updateWindowDims := [1]
  insertedWindowDims := [0]
  scatterDimsToOperandDims := [0]
  indexVectorDim := 1
  wf := scatter_S50000x5_S800000x1_S800000x5_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x5_S5x256_S1000x256_1_0_0_1_n_n : DotDims S1000x5 S5x256 S1000x256 where
  lhsContracting := [1]
  rhsContracting := [0]
  lhsNonContracting := [0]
  rhsNonContracting := [1]
  lhsBatch := []
  rhsBatch := []
  wf := dot_S1000x5_S5x256_S1000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x5_S1000x5_1_0_0_1_n_n : DotDims S1000x256 S256x5 S1000x5 where
  lhsContracting := [1]
  rhsContracting := [0]
  lhsNonContracting := [0]
  rhsNonContracting := [1]
  lhsBatch := []
  rhsBatch := []
  wf := dot_S1000x256_S256x5_S1000x5_1_0_0_1_n_n_wf

abbrev win0_0 : Pipeline.Window sig grid0 :=
  Pipeline.Window.ofSpec (Memref.whole main_v22) S1000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S5x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x5.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x5.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1000x5.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x5 : Shape := ⟨2, ![50000, 5]⟩
abbrev S2x800000 : Shape := ⟨2, ![2, 800000]⟩
abbrev S5x256 : Shape := ⟨2, ![5, 256]⟩
abbrev S256 : Shape := ⟨1, ![256]⟩
abbrev S256x256 : Shape := ⟨2, ![256, 256]⟩
abbrev S256x5 : Shape := ⟨2, ![256, 5]⟩
abbrev S5 : Shape := ⟨1, ![5]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x5 : Shape := ⟨2, ![800000, 5]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x5 : Shape := ⟨2, ![1, 5]⟩

abbrev nBuf : Space → Nat
  | .hbm => 104
  | .vmem => 0
  | .smem => 0
  | _ => 0

abbrev bufTy : (tb : Table) → Fin (tcTables nBuf tb) → BufTy
  | .hbm, ⟨0, _⟩ => ⟨S50000x5, .f32⟩
  | .hbm, ⟨1, _⟩ => ⟨S2x800000, .i32⟩
  | .hbm, ⟨2, _⟩ => ⟨S5x256, .f32⟩
  | .hbm, ⟨3, _⟩ => ⟨S256, .f32⟩
  | .hbm, ⟨4, _⟩ => ⟨S5x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x5, .f32⟩
  | .hbm, ⟨9, _⟩ => ⟨S5, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x5, .f32⟩
  | .hbm, ⟨23, _⟩ => ⟨S_, .f32⟩
  | .hbm, ⟨24, _⟩ => ⟨S50000x5, .f32⟩
  | .hbm, ⟨25, _⟩ => ⟨S800000x1, .i32⟩
  | .hbm, ⟨26, _⟩ => ⟨S50000x5, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x5, .f32⟩
  | .hbm, ⟨38, _⟩ => ⟨S50000x5, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S1x800000, .i32⟩
  | .hbm, ⟨49, _⟩ => ⟨S800000, .i32⟩
  | .hbm, ⟨50, _⟩ => ⟨S1x800000, .i32⟩
  | .hbm, ⟨51, _⟩ => ⟨S800000, .i32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S1x256, .f32⟩
  | .hbm, ⟨79, _⟩ => ⟨S50000x256, .f32⟩
  | .hbm, ⟨80, _⟩ => ⟨S50000x256, .f32⟩
  | .hbm, ⟨81, _⟩ => ⟨S50000x256, .f32⟩
  | .hbm, ⟨82, _⟩ => ⟨S50000x256, .f32⟩
  | .hbm, ⟨83, _⟩ => ⟨S_, .f32⟩
  | .hbm, ⟨84, _⟩ => ⟨S50000x256, .f32⟩
  | .hbm, ⟨85, _⟩ => ⟨S50000x256, .f32⟩
  | .hbm, ⟨86, _⟩ => ⟨S50000x5, .f32⟩
  | .hbm, ⟨87, _⟩ => ⟨S1x5, .f32⟩
  | .hbm, ⟨88, _⟩ => ⟨S50000x5, .f32⟩
  | .hbm, ⟨89, _⟩ => ⟨S50000x5, .f32⟩
  | .hbm, ⟨90, _⟩ => ⟨S_, .f32⟩
  | .hbm, ⟨91, _⟩ => ⟨S50000, .f32⟩
  | .hbm, ⟨92, _⟩ => ⟨S_, .f32⟩
  | .hbm, ⟨93, _⟩ => ⟨S50000, .f32⟩
  | .hbm, ⟨94, _⟩ => ⟨S50000, .f32⟩
  | .hbm, ⟨95, _⟩ => ⟨S50000x1, .f32⟩
  | .hbm, ⟨96, _⟩ => ⟨S50000x5, .f32⟩
  | .hbm, ⟨97, _⟩ => ⟨S50000x5, .f32⟩
  | .hbm, ⟨98, _⟩ => ⟨S50000x5, .f32⟩
  | .hbm, ⟨99, _⟩ => ⟨S_, .f32⟩
  | .hbm, ⟨100, _⟩ => ⟨S50000, .f32⟩
  | .hbm, ⟨101, _⟩ => ⟨S50000x1, .f32⟩
  | .hbm, ⟨102, _⟩ => ⟨S50000x5, .f32⟩
  | .hbm, ⟨103, _⟩ => ⟨S50000x5, .f32⟩
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x5 : S_.BroadcastsInDim S50000x5 (![] : Fin 0 → Fin S50000x5.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x5_0_1 : S50000x1.BroadcastsInDim S50000x5 (![0, 1] : Fin 2 → Fin S50000x5.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S5_S1x5_1 : S5.BroadcastsInDim S1x5 (![1] : Fin 1 → Fin S1x5.rank)
  bcast_S1x5_S50000x5_0_1 : S1x5.BroadcastsInDim S50000x5 (![0, 1] : Fin 2 → Fin S50000x5.rank)
  reducesTo_S50000x5_S50000_d1 : S50000x5.ReducesTo [1] S50000
  h_S_ : 0 < S_.numel
  gather_S50000x5_S800000x1_S800000x5_1_0_n_n_0_1_15_wf : GatherDims.WF S50000x5 S800000x1 S800000x5 [1] [0] [] [0] [] 1 ![1, 5]
  scatter_S50000x5_S800000x1_S800000x5_1_0_0_1_wf : ScatterDims.WF S50000x5 S800000x1 S800000x5 [1] [0] [0] 1
  scatter_S50000_S800000x1_S800000_n_0_0_1_wf : ScatterDims.WF S50000 S800000x1 S800000 [] [0] [0] 1
  dot_S50000x5_S5x256_S50000x256_1_0_0_1_n_n_wf : DotDims.WF S50000x5 S5x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x5_S50000x5_1_0_0_1_n_n_wf : DotDims.WF S50000x256 S256x5 S50000x5 [1] [0] [0] [1] [] []

variable [Facts₀]

def gather_S50000x5_S800000x1_S800000x5_1_0_n_n_0_1_15 : GatherDims S50000x5 S800000x1 S800000x5 where
  offsetDims := [1]
  collapsedSliceDims := [0]
  operandBatchingDims := []
  startIndicesBatchingDims := []
  startIndexMap := [0]
  indexVectorDim := 1
  sliceSizes := ![1, 5]
  wf := gather_S50000x5_S800000x1_S800000x5_1_0_n_n_0_1_15_wf
def scatter_S50000x5_S800000x1_S800000x5_1_0_0_1 : ScatterDims S50000x5 S800000x1 S800000x5 where
  updateWindowDims := [1]
  insertedWindowDims := [0]
  scatterDimsToOperandDims := [0]
  indexVectorDim := 1
  wf := scatter_S50000x5_S800000x1_S800000x5_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x5_S5x256_S50000x256_1_0_0_1_n_n : DotDims S50000x5 S5x256 S50000x256 where
  lhsContracting := [1]
  rhsContracting := [0]
  lhsNonContracting := [0]
  rhsNonContracting := [1]
  lhsBatch := []
  rhsBatch := []
  wf := dot_S50000x5_S5x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x5_S50000x5_1_0_0_1_n_n : DotDims S50000x256 S256x5 S50000x5 where
  lhsContracting := [1]
  rhsContracting := [0]
  lhsNonContracting := [0]
  rhsNonContracting := [1]
  lhsBatch := []
  rhsBatch := []
  wf := dot_S50000x256_S256x5_S50000x5_1_0_0_1_n_n_wf

class Facts : Prop extends Facts₀ where

variable [Facts]
-- ==== Proof.KernelRun.lean ====
/-
  The idealized kernel's run with its result named. The program is three launches among stretches of host
  operations; run from any memory, every weakly fair execution ends with every unscoped buffer at the contents the
  last segment leaves (`W6`): the result buffer at what the third launch's write-backs leave, and each argument at
  its launch contents.
-/
import proofs.«175750_j79740362817955_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the contents the
    third launch leaves and the arguments unchanged. -/
theorem run : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Named

end
-- ==== Proof.Spec.lean ====
/-
  The mathematics of the two-layer mean-aggregation graph network, entry by entry, on the extended reals.

  A layer sends a row of aggregated neighbour features `A p` and the node's own features `X p` to
  `max (A p · Wl + X p · Wr + b) 0`; the output head sends a hidden row to the softmax of `H p · Wo + bo`, taken
  with the row's maximum subtracted. The sums are finite sums over the contracted axis; only commutativity and
  associativity of addition are used, which hold on all of the extended reals, so no finiteness is needed.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- The float word of zero, read exactly. It is never evaluated: both programs carry the same word. -/
abbrev zeroW : EReal := Ideal.ofBits .f32 0x00000000#32
/-- The float word of minus infinity, read exactly. -/
abbrev negInfW : EReal := Ideal.ofBits .f32 0xFF800000#32

/-- Entry `(p, q)` of a layer: the aggregated row times `Wl`, plus the node's row times `Wr`, plus the bias,
    clamped below at zero. The two products are added first, then the bias. -/
def layerVal {n K H : ℕ} (A X : Fin n → Fin K → EReal) (Wl Wr : Fin K → Fin H → EReal) (b : Fin H → EReal)
    (p : Fin n) (q : Fin H) : EReal :=
  max (((∑ k, A p k * Wl k q) + (∑ k, X p k * Wr k q)) + b q) zeroW

/-- Adding the bias between the two products gives the same entry: addition is commutative and associative. -/
theorem layerVal_bias_between {n K H : ℕ} (A X : Fin n → Fin K → EReal) (Wl Wr : Fin K → Fin H → EReal)
    (b : Fin H → EReal) (p : Fin n) (q : Fin H) :
    max (((∑ k, A p k * Wl k q) + b q) + (∑ k, X p k * Wr k q)) zeroW = layerVal A X Wl Wr b p q := by
  unfold layerVal
  rw [add_right_comm]

/-- Entry `(p, q)` of the logits: the hidden row times `Wo`, plus the bias. -/
def logitVal {n K C : ℕ} (Hh : Fin n → Fin K → EReal) (Wo : Fin K → Fin C → EReal) (bo : Fin C → EReal)
    (p : Fin n) (q : Fin C) : EReal :=
  (∑ k, Hh p k * Wo k q) + bo q

/-- The maximum of a row, started from minus infinity, and once more compared with minus infinity
    (both programs take the maximum with that initial value and then again with the constant). -/
def rowMax {C : ℕ} (r : Fin C → EReal) : EReal :=
  max negInfW ((Finset.univ : Finset (Fin C)).fold max negInfW r)

/-- Entry `(p, q)` of the row-wise softmax of `Z`: the exponential of the entry less the row's maximum, over the
    sum of those exponentials along the row. -/
def softVal {n C : ℕ} (Z : Fin n → Fin C → EReal) (p : Fin n) (q : Fin C) : EReal :=
  Ideal.div (Ideal.exp (Z p q - rowMax (Z p))) (∑ k, Ideal.exp (Z p k - rowMax (Z p)))

/-- A layer's entry depends only on row `p` of the two row operands, column `q` of the weights and entry `q` of the
    bias: equal data there, equal entry (the row operands may be arrays of different heights). -/
theorem layerVal_congr {n n' K H : ℕ} (A X : Fin n → Fin K → EReal) (A' X' : Fin n' → Fin K → EReal)
    (Wl Wr Wl' Wr' : Fin K → Fin H → EReal) (b b' : Fin H → EReal) (p : Fin n) (p' : Fin n') (q : Fin H)
    (hA : ∀ k, A p k = A' p' k) (hX : ∀ k, X p k = X' p' k) (hWl : ∀ k, Wl k q = Wl' k q)
    (hWr : ∀ k, Wr k q = Wr' k q) (hb : b q = b' q) :
    layerVal A X Wl Wr b p q = layerVal A' X' Wl' Wr' b' p' q := by
  unfold layerVal
  simp only [hA, hX, hWl, hWr, hb]

/-- A logit depends only on row `p` of the hidden array. -/
theorem logitVal_congr {n n' K C : ℕ} (Hh : Fin n → Fin K → EReal) (Hh' : Fin n' → Fin K → EReal)
    (Wo Wo' : Fin K → Fin C → EReal) (bo bo' : Fin C → EReal) (p : Fin n) (p' : Fin n') (q : Fin C)
    (hH : ∀ k, Hh p k = Hh' p' k) (hW : ∀ k, Wo k q = Wo' k q) (hb : bo q = bo' q) :
    logitVal Hh Wo bo p q = logitVal Hh' Wo' bo' p' q := by
  unfold logitVal
  simp only [hH, hW, hb]

/-- A softmax entry depends only on row `p` of the logits. -/
theorem softVal_congr {n n' C : ℕ} (Z : Fin n → Fin C → EReal) (Z' : Fin n' → Fin C → EReal) (p : Fin n) (p' : Fin n')
    (q : Fin C) (hZ : ∀ k, Z p k = Z' p' k) : softVal Z p q = softVal Z' p' q := by
  have hrow : Z p = Z' p' := funext hZ
  unfold softVal
  simp only [hrow, hZ]

/-- A layer as a whole array: entry `j` is the layer's value at row `j 0`, column `j 1`. -/
def layerArr {n K H : ℕ} (A X : (⟨2, ![n, K]⟩ : Shape).Idx → EReal) (Wl Wr : (⟨2, ![K, H]⟩ : Shape).Idx → EReal)
    (b : Fin H → EReal) : (⟨2, ![n, H]⟩ : Shape).Idx → EReal := fun j =>
  layerVal (fun p k => A (ix2 p k)) (fun p k => X (ix2 p k)) (fun k q => Wl (ix2 k q)) (fun k q => Wr (ix2 k q)) b (j 0) (j 1)

/-- The output head as a whole array: the row-wise softmax of the hidden array times `Wo` plus the bias. -/
def softArr {n K C : ℕ} (Hh : (⟨2, ![n, K]⟩ : Shape).Idx → EReal) (Wo : (⟨2, ![K, C]⟩ : Shape).Idx → EReal)
    (bo : Fin C → EReal) : (⟨2, ![n, C]⟩ : Shape).Idx → EReal := fun j =>
  softVal (logitVal (fun p k => Hh (ix2 p k)) (fun k q => Wo (ix2 k q)) bo) (j 0) (j 1)

end Cert.Sage

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.LayerBody.lean ====
/-
  The two layer bodies at one entry. A body loads a block of aggregated rows, the same rows of the nodes' own
  features, both weight matrices whole and the bias as a one-row array; at entry (p, q) of the block it leaves
  `max (Σₖ agg[p,k]·Wl[k,q] + Σₖ x[p,k]·Wr[k,q] + b[q]) 0`: the changes of float format are the identity on the
  extended reals, a product into a zero accumulator is the plain sum of products, and the bias row is repeated
  down the rows.
-/
import proofs.«175750_j79740362817955_1_alg».proof.Proof.Gen.KernelIdeal.Skeleton
import proofs.«175750_j79740362817955_1_alg».proof.Proof.Spec
import proofs.«175750_j79740362817955_1_alg».proof.Proof.LibMatmulRead
import Idealize.ShloMosaic.Lib.ValueIdx
import Idealize.ShloMosaic.Lib.ValueLayout
import Idealize.ShloMosaic.Lib.Pipeline.Value

noncomputable section

open scoped BigOperators

namespace Cert.KernelIdeal.LayerBody

open Cert.KernelIdeal Cert.KernelIdeal.Gen Idealize.ShloMosaic Idealize.ShloMosaic.ValueIdx Cert.Sage

/-- The first layer's product record contracts rows with columns. -/
theorem rowsByCols5 : MatmulRead.RowsByCols dot_S1000x5_S5x256_S1000x256_1_0_0_1_n_n := ⟨rfl, rfl, rfl, rfl, rfl, rfl⟩
/-- The second layer's product record contracts rows with columns. -/
theorem rowsByCols256 : MatmulRead.RowsByCols dot_S1000x256_S256x256_S1000x256_1_0_0_1_n_n := ⟨rfl, rfl, rfl, rfl, rfl, rfl⟩

/-- The first layer's body at entry (p, q) of its block. -/
theorem pay0_apply (x0 x1 : Vec Ideal S1000x5 .f32) (x2 x3 : Vec Ideal S5x256 .f32) (x4 : Vec Ideal S1x256 .f32)
    (p : Fin 1000) (q : Fin 256) :
    k0_pay1 (F := Ideal) x0 x1 x2 x3 x4 (ix2 p q)
      = layerVal (fun r k => x0 (ix2 r k)) (fun r k => x1 (ix2 r k)) (fun k c => x2 (ix2 k c)) (fun k c => x3 (ix2 k c))
          (fun c => x4 (ix2 (0 : Fin 1) c)) p q := by
  unfold k0_pay1 layerVal
  rw [maximumf_apply, addf_apply, addf_apply]
  unfold matmul
  rw [MatmulRead.matmul_zero_ix2 rowsByCols5 rfl rfl, MatmulRead.matmul_zero_ix2 rowsByCols5 rfl rfl,
    broadcastTo_1b_ab_apply, shapeCast_self, shapeCast_self]
  rfl

/-- The second layer's body at entry (p, q) of its block. -/
theorem pay1_apply (x0 x1 : Vec Ideal S1000x256 .f32) (x2 x3 : Vec Ideal S256x256 .f32) (x4 : Vec Ideal S1x256 .f32)
    (p : Fin 1000) (q : Fin 256) :
    k1_pay1 (F := Ideal) x0 x1 x2 x3 x4 (ix2 p q)
      = layerVal (fun r k => x0 (ix2 r k)) (fun r k => x1 (ix2 r k)) (fun k c => x2 (ix2 k c)) (fun k c => x3 (ix2 k c))
          (fun c => x4 (ix2 (0 : Fin 1) c)) p q := by
  unfold k1_pay1 layerVal
  rw [maximumf_apply, addf_apply, addf_apply]
  unfold matmul
  rw [MatmulRead.matmul_zero_ix2 rowsByCols256 rfl rfl, MatmulRead.matmul_zero_ix2 rowsByCols256 rfl rfl,
    broadcastTo_1b_ab_apply, shapeCast_self, shapeCast_self, shapeCast_self]
  rfl

end Cert.KernelIdeal.LayerBody

end
-- ==== Proof.Region0.lean ====
/-
  The array the first layer's launch leaves, as one function of the arrays it is entered with.

  Grid point t stages rows 1000·t … 1000·t + 999 of the aggregated features and of the nodes' features, both weight
  matrices whole and the bias row, and writes back the same rows of the output. A block entry (r, q) is therefore the
  layer's value at row 1000·t + r and column q of the whole arrays, and since the fifty blocks tile the 50000 rows the
  output array is the layer applied to the whole arrays.
-/
import proofs.«175750_j79740362817955_1_alg».proof.Proof.Gen.KernelIdeal.Frame
import proofs.«175750_j79740362817955_1_alg».proof.Proof.LayerBody
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Cert.Sage
open Idealize.ShloMosaic.Pipeline (Dat)

variable (V : (c : Dev nD) → (b : Ref sig .tc) → Buf (Elt Ideal) ((c : Thread nD τ).loc b))

theorem offZero : (![0, 0] : Fin 2 → Nat) = fun _ => 0 := funext fun a => by fin_cases a <;> rfl

/-- The printed index maps over the grid: the row operands and the output move one block of rows per point, the
    weights and the bias stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 50 := lt_of_lt_of_eq t.isLt N_0

/-- Row r of point t's block is row 1000·t + r of the array. -/
def row (t : Fin cfg0.N) (r : Fin 1000) : Fin 50000 := ⟨t.val * 1000 + r.val, by have := point_lt t; have := r.isLt; omega⟩

/-- The output array: the layer of the arrays the region is entered with. -/
def G (c : Dev nD) : S50000x256.Idx → EReal :=
  layerArr (V c main_v22) (V c main_arg0) (V c main_arg2) (V c main_arg4) (fun q => V c main_v23 (ix2 (0 : Fin 1) q))

/-- The aggregated rows a point stages. -/
theorem blk_agg (c : Dev nD) (t : Fin cfg0.N) (r : Fin 1000) (k : Fin 5) :
    iblk0 V c 0 t (ix2 r k) = V c main_v22 (ix2 (row t r) k) := by
  show V c main_v22 (((cfg0.win 0).blk t).view.emb (ix2 r k)) = V c main_v22 (ix2 (row t r) k)
  obtain ⟨e00, e01, -⟩ := idx_facts t
  refine congrArg (V c main_v22) (funext fun a => Fin.ext ?_)
  match a with
  | ⟨0, _⟩ => show win0_0.index t (0 : Fin 2) * 1000 + 1 * r.val = t.val * 1000 + r.val; omega
  | ⟨1, _⟩ => show win0_0.index t (1 : Fin 2) * 5 + 1 * k.val = k.val; omega

/-- The nodes' rows a point stages. -/
theorem blk_x (c : Dev nD) (t : Fin cfg0.N) (r : Fin 1000) (k : Fin 5) :
    iblk0 V c 1 t (ix2 r k) = V c main_arg0 (ix2 (row t r) k) := by
  show V c main_arg0 (((cfg0.win 1).blk t).view.emb (ix2 r k)) = V c main_arg0 (ix2 (row t r) k)
  obtain ⟨-, -, e10, e11, -⟩ := idx_facts t
  refine congrArg (V c main_arg0) (funext fun a => Fin.ext ?_)
  match a with
  | ⟨0, _⟩ => show win0_1.index t (0 : Fin 2) * 1000 + 1 * r.val = t.val * 1000 + r.val; omega
  | ⟨1, _⟩ => show win0_1.index t (1 : Fin 2) * 5 + 1 * k.val = k.val; omega

/-- The first weight matrix is staged whole at every point. -/
theorem blk_wl (c : Dev nD) (t : Fin cfg0.N) (k : Fin 5) (q : Fin 256) :
    iblk0 V c 2 t (ix2 k q) = V c main_arg2 (ix2 k q) := by
  show V c main_arg2 (((cfg0.win 2).blk t).view.emb (ix2 k q)) = V c main_arg2 (ix2 k q)
  obtain ⟨-, -, -, -, e20, e21, -⟩ := idx_facts t
  refine congrArg (V c main_arg2) (funext fun a => Fin.ext ?_)
  match a with
  | ⟨0, _⟩ => show win0_2.index t (0 : Fin 2) * 5 + 1 * k.val = k.val; omega
  | ⟨1, _⟩ => show win0_2.index t (1 : Fin 2) * 256 + 1 * q.val = q.val; omega

/-- The second weight matrix is staged whole at every point. -/
theorem blk_wr (c : Dev nD) (t : Fin cfg0.N) (k : Fin 5) (q : Fin 256) :
    iblk0 V c 3 t (ix2 k q) = V c main_arg4 (ix2 k q) := by
  show V c main_arg4 (((cfg0.win 3).blk t).view.emb (ix2 k q)) = V c main_arg4 (ix2 k q)
  obtain ⟨-, -, -, -, -, -, e30, e31, -⟩ := idx_facts t
  refine congrArg (V c main_arg4) (funext fun a => Fin.ext ?_)
  match a with
  | ⟨0, _⟩ => show win0_3.index t (0 : Fin 2) * 5 + 1 * k.val = k.val; omega
  | ⟨1, _⟩ => show win0_3.index t (1 : Fin 2) * 256 + 1 * q.val = q.val; omega

/-- The bias row is staged whole at every point. -/
theorem blk_b (c : Dev nD) (t : Fin cfg0.N) (q : Fin 256) :
    iblk0 V c 4 t (ix2 (0 : Fin 1) q) = V c main_v23 (ix2 (0 : Fin 1) q) := by
  show V c main_v23 (((cfg0.win 4).blk t).view.emb (ix2 (0 : Fin 1) q)) = V c main_v23 (ix2 (0 : Fin 1) q)
  obtain ⟨-, -, -, -, -, -, -, -, e40, e41, -⟩ := idx_facts t
  refine congrArg (V c main_v23) (funext fun a => Fin.ext ?_)
  match a with
  | ⟨0, _⟩ => show win0_4.index t (0 : Fin 2) * 1 + 1 * 0 = 0; omega
  | ⟨1, _⟩ => show win0_4.index t (1 : Fin 2) * 256 + 1 * q.val = q.val; omega

/-- Where the output's block sits in the array. -/
theorem emb_out (t : Fin cfg0.N) (r : Fin 1000) (q : Fin 256) :
    ((cfg0.win 5).blk t).view.emb (ix2 r q) = ix2 (row t r) q := by
  obtain ⟨-, -, -, -, -, -, -, -, -, -, e50, e51⟩ := idx_facts t
  refine funext fun a => Fin.ext ?_
  match a with
  | ⟨0, _⟩ => show win0_5.index t (0 : Fin 2) * 1000 + 1 * r.val = t.val * 1000 + r.val; omega
  | ⟨1, _⟩ => show win0_5.index t (1 : Fin 2) * 256 + 1 * q.val = q.val; omega

/-- The layer's value over a point's staged blocks at (r, q) is the layer of the whole arrays at (1000·t + r, q). -/
theorem entry_eq (c : Dev nD) (t : Fin cfg0.N) (r : Fin 1000) (q : Fin 256) :
    layerVal (fun r k => iblk0 V c 0 t (ix2 r k)) (fun r k => iblk0 V c 1 t (ix2 r k)) (fun k c' => iblk0 V c 2 t (ix2 k c'))
        (fun k c' => iblk0 V c 3 t (ix2 k c')) (fun c' => iblk0 V c 4 t (ix2 (0 : Fin 1) c')) r q
      = G V c (ix2 (row t r) q) :=
  layerVal_congr (fun r k => iblk0 V c 0 t (ix2 r k)) (fun r k => iblk0 V c 1 t (ix2 r k))
    (fun p k => V c main_v22 (ix2 p k)) (fun p k => V c main_arg0 (ix2 p k))
    (fun k c' => iblk0 V c 2 t (ix2 k c')) (fun k c' => iblk0 V c 3 t (ix2 k c'))
    (fun k q => V c main_arg2 (ix2 k q)) (fun k q => V c main_arg4 (ix2 k q))
    (fun c' => iblk0 V c 4 t (ix2 (0 : Fin 1) c')) (fun q => V c main_v23 (ix2 (0 : Fin 1) q))
    r (row t r) q (fun k => blk_agg V c t r k) (fun k => blk_x V c t r k)
    (fun k => blk_wl V c t k q) (fun k => blk_wr V c t k q) (blk_b V c t q)

/-- What point t writes back is block t of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero offZero]
  simp only [View.ld_unit_zero (S := S1000x5) offZero, View.ld_unit_zero (S := S5x256) offZero,
    View.ld_unit_zero (S := S1x256) offZero]
  funext y
  obtain ⟨r, q, rfl⟩ : ∃ (r : Fin 1000) (q : Fin 256), y = ix2 r q := ⟨y 0, y 1, eq_ix2 y⟩
  rw [View.read_apply, emb_out t r q]
  exact (LayerBody.pay0_apply (iblk0 V c 0 t) (iblk0 V c 1 t) (iblk0 V c 2 t) (iblk0 V c 3 t) (iblk0 V c 4 t) r q).trans
    (entry_eq V c t r q)

/-- An index of the array is in point t's block iff each coordinate is in the block's range on its axis. -/
theorem mem_blk (t : Fin cfg0.N) (i : S50000x256.Idx) :
    i ∈ ((cfg0.win 5).blk t).view.set ↔ ∀ a : Fin 2, win0_5.index t a * S1000x256.size a ≤ (i a).val ∧ (i a).val < win0_5.index t a * S1000x256.size a + S1000x256.size a := by
  show i ∈ ((View.whole main_v24).slice (win0_5.rect t)).set ↔ _
  rw [View.set_slice_whole, Rect.mem_set_unit]
  exact Iff.rfl

/-- Every row lies in the block of the point numbered by its thousand. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ : ∃ t : Fin cfg0.N, t.val = (i 0).val / 1000 :=
    ⟨⟨(i 0).val / 1000, lt_of_lt_of_eq (by omega : (i 0).val / 1000 < 50) N_0.symm⟩, rfl⟩
  obtain ⟨-, -, -, -, -, -, -, -, -, -, e50, e51⟩ := idx_facts t
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 256 ≤ (i 1).val ∧ (i 1).val < win0_5.index t (1 : Fin 2) * 256 + 256; omega

/-- The output array after the launch is the layer of the arrays the region was entered with. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.Entry0.lean ====
/-
  What the first launch is entered with, and hence what it leaves. The host operations before it compute the mean of
  the neighbours' input features (the gather along the edges' sources, the scatter-add into their targets, the division
  by the clamped in-degree): the very operations the reference applies, so that array is the reference's own stage of
  the arguments. The bias is recast as a one-row array, and the arguments are untouched.
-/
import proofs.«175750_j79740362817955_1_alg».proof.Proof.Gen.KernelIdeal.Frame
import proofs.«175750_j79740362817955_1_alg».proof.Proof.Gen.ReferenceIdeal.Read
import proofs.«175750_j79740362817955_1_alg».proof.Proof.Region0
import Idealize.ShloMosaic.Lib.StableHlo.Run
import Idealize.ShloMosaic.Lib.ValueLayout

set_option maxRecDepth 16384

noncomputable section

namespace Cert.KernelIdeal.Entry0

open Cert.KernelIdeal Cert.KernelIdeal.Gen Idealize.ShloMosaic Idealize.ShloMosaic.TcCoe Idealize.SL.Sem
open Idealize.ShloMosaic.StableHlo Idealize.ShloMosaic.ValueIdx Cert.Sage

variable (m : (ℓ : Loc nD τ sig) → Buf (Elt Ideal) ℓ) (ρ : Dev nD → PrngReg) (c : Dev nD)

/-- No host operation before the first launch writes argument 0. -/
theorem arg0 : V1 m ρ c main_arg0 = m ((c : Thread nD τ).loc main_arg0) := by
  show StableHlo.after hostOps0 (W0 m ρ c) (Proc.devRef .tc main_arg0) = _
  after_results

/-- No host operation before the first launch writes argument 2. -/
theorem arg2 : V1 m ρ c main_arg2 = m ((c : Thread nD τ).loc main_arg2) := by
  show StableHlo.after hostOps0 (W0 m ρ c) (Proc.devRef .tc main_arg2) = _
  after_results

/-- No host operation before the first launch writes argument 4. -/
theorem arg4 : V1 m ρ c main_arg4 = m ((c : Thread nD τ).loc main_arg4) := by
  show StableHlo.after hostOps0 (W0 m ρ c) (Proc.devRef .tc main_arg4) = _
  after_results

set_option maxHeartbeats 4000000 in
/-- The aggregated input features are the reference's aggregation stage of the same arguments. -/
theorem agg : V1 m ρ c main_v22
    = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp
  rfl

/-- The bias as the launch finds it: the argument recast as one row. -/
theorem biasRow : V1 m ρ c main_v23 = shapeCast S1x256 (m ((c : Thread nD τ).loc main_arg3)) shapeCasts_S256_S1x256 := by
  show StableHlo.after hostOps0 (W0 m ρ c) (Proc.devRef .tc main_v23) = _
  after_results_simp
  rfl

/-- Entry q of the bias row is entry q of the bias. -/
theorem bias (q : Fin 256) : V1 m ρ c main_v23 (ix2 (0 : Fin 1) q) = (m ((c : Thread nD τ).loc main_arg3)) (ix1 q) := by
  rw [biasRow]
  exact shapeCast_a_1a_apply _ _ 0 q

/-- The first launch leaves the first layer of the reference's aggregation stage and the input features. -/
theorem out : Region0.G (V1 m ρ) c
    = layerArr (Cert.ReferenceIdeal.Read.val_main_v22 (F := Ideal) (m ((c : Thread nD τ).loc main_arg0)) (m ((c : Thread nD τ).loc main_arg1)))
        (m ((c : Thread nD τ).loc main_arg0)) (m ((c : Thread nD τ).loc main_arg2)) (m ((c : Thread nD τ).loc main_arg4)) (fun q => (m ((c : Thread nD τ).loc main_arg3)) (ix1 q)) := by
  unfold Region0.G
  rw [agg, arg0, arg2, arg4]
  exact congrArg (layerArr (Cert.ReferenceIdeal.Read.val_main_v22 (F := Ideal) (m ((c : Thread nD τ).loc main_arg0)) (m ((c : Thread nD τ).loc main_arg1))) (m ((c : Thread nD τ).loc main_arg0)) (m ((c : Thread nD τ).loc main_arg2)) (m ((c : Thread nD τ).loc main_arg4)))
    (funext fun q => bias m ρ c q)

end Cert.KernelIdeal.Entry0

end
-- ==== Proof.Region1.lean ====
/-
  The array the second layer's launch leaves, as one function of the arrays it is entered with.

  Grid point t stages rows 1000·t … 1000·t + 999 of the aggregated features and of the nodes' features, both weight
  matrices whole and the bias row, and writes back the same rows of the output. A block entry (r, q) is therefore the
  layer's value at row 1000·t + r and column q of the whole arrays, and since the fifty blocks tile the 50000 rows the
  output array is the layer applied to the whole arrays.
-/
import proofs.«175750_j79740362817955_1_alg».proof.Proof.Gen.KernelIdeal.Frame
import proofs.«175750_j79740362817955_1_alg».proof.Proof.LayerBody
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Cert.Sage
open Idealize.ShloMosaic.Pipeline (Dat)

variable (V : (c : Dev nD) → (b : Ref sig .tc) → Buf (Elt Ideal) ((c : Thread nD τ).loc b))

theorem offZero : (![0, 0] : Fin 2 → Nat) = fun _ => 0 := funext fun a => by fin_cases a <;> rfl

/-- The printed index maps over the grid: the row operands and the output move one block of rows per point, the
    weights and the bias stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 50 := lt_of_lt_of_eq t.isLt N_1

/-- Row r of point t's block is row 1000·t + r of the array. -/
def row (t : Fin cfg1.N) (r : Fin 1000) : Fin 50000 := ⟨t.val * 1000 + r.val, by have := point_lt t; have := r.isLt; omega⟩

/-- The output array: the layer of the arrays the region is entered with. -/
def G (c : Dev nD) : S50000x256.Idx → EReal :=
  layerArr (V c main_v43) (V c main_v24) (V c main_arg5) (V c main_arg7) (fun q => V c main_v44 (ix2 (0 : Fin 1) q))

/-- The aggregated rows a point stages. -/
theorem blk_agg (c : Dev nD) (t : Fin cfg1.N) (r : Fin 1000) (k : Fin 256) :
    iblk1 V c 0 t (ix2 r k) = V c main_v43 (ix2 (row t r) k) := by
  show V c main_v43 (((cfg1.win 0).blk t).view.emb (ix2 r k)) = V c main_v43 (ix2 (row t r) k)
  obtain ⟨e00, e01, -⟩ := idx_facts t
  refine congrArg (V c main_v43) (funext fun a => Fin.ext ?_)
  match a with
  | ⟨0, _⟩ => show win1_0.index t (0 : Fin 2) * 1000 + 1 * r.val = t.val * 1000 + r.val; omega
  | ⟨1, _⟩ => show win1_0.index t (1 : Fin 2) * 256 + 1 * k.val = k.val; omega

/-- The nodes' rows a point stages. -/
theorem blk_x (c : Dev nD) (t : Fin cfg1.N) (r : Fin 1000) (k : Fin 256) :
    iblk1 V c 1 t (ix2 r k) = V c main_v24 (ix2 (row t r) k) := by
  show V c main_v24 (((cfg1.win 1).blk t).view.emb (ix2 r k)) = V c main_v24 (ix2 (row t r) k)
  obtain ⟨-, -, e10, e11, -⟩ := idx_facts t
  refine congrArg (V c main_v24) (funext fun a => Fin.ext ?_)
  match a with
  | ⟨0, _⟩ => show win1_1.index t (0 : Fin 2) * 1000 + 1 * r.val = t.val * 1000 + r.val; omega
  | ⟨1, _⟩ => show win1_1.index t (1 : Fin 2) * 256 + 1 * k.val = k.val; omega

/-- The first weight matrix is staged whole at every point. -/
theorem blk_wl (c : Dev nD) (t : Fin cfg1.N) (k : Fin 256) (q : Fin 256) :
    iblk1 V c 2 t (ix2 k q) = V c main_arg5 (ix2 k q) := by
  show V c main_arg5 (((cfg1.win 2).blk t).view.emb (ix2 k q)) = V c main_arg5 (ix2 k q)
  obtain ⟨-, -, -, -, e20, e21, -⟩ := idx_facts t
  refine congrArg (V c main_arg5) (funext fun a => Fin.ext ?_)
  match a with
  | ⟨0, _⟩ => show win1_2.index t (0 : Fin 2) * 256 + 1 * k.val = k.val; omega
  | ⟨1, _⟩ => show win1_2.index t (1 : Fin 2) * 256 + 1 * q.val = q.val; omega

/-- The second weight matrix is staged whole at every point. -/
theorem blk_wr (c : Dev nD) (t : Fin cfg1.N) (k : Fin 256) (q : Fin 256) :
    iblk1 V c 3 t (ix2 k q) = V c main_arg7 (ix2 k q) := by
  show V c main_arg7 (((cfg1.win 3).blk t).view.emb (ix2 k q)) = V c main_arg7 (ix2 k q)
  obtain ⟨-, -, -, -, -, -, e30, e31, -⟩ := idx_facts t
  refine congrArg (V c main_arg7) (funext fun a => Fin.ext ?_)
  match a with
  | ⟨0, _⟩ => show win1_3.index t (0 : Fin 2) * 256 + 1 * k.val = k.val; omega
  | ⟨1, _⟩ => show win1_3.index t (1 : Fin 2) * 256 + 1 * q.val = q.val; omega

/-- The bias row is staged whole at every point. -/
theorem blk_b (c : Dev nD) (t : Fin cfg1.N) (q : Fin 256) :
    iblk1 V c 4 t (ix2 (0 : Fin 1) q) = V c main_v44 (ix2 (0 : Fin 1) q) := by
  show V c main_v44 (((cfg1.win 4).blk t).view.emb (ix2 (0 : Fin 1) q)) = V c main_v44 (ix2 (0 : Fin 1) q)
  obtain ⟨-, -, -, -, -, -, -, -, e40, e41, -⟩ := idx_facts t
  refine congrArg (V c main_v44) (funext fun a => Fin.ext ?_)
  match a with
  | ⟨0, _⟩ => show win1_4.index t (0 : Fin 2) * 1 + 1 * 0 = 0; omega
  | ⟨1, _⟩ => show win1_4.index t (1 : Fin 2) * 256 + 1 * q.val = q.val; omega

/-- Where the output's block sits in the array. -/
theorem emb_out (t : Fin cfg1.N) (r : Fin 1000) (q : Fin 256) :
    ((cfg1.win 5).blk t).view.emb (ix2 r q) = ix2 (row t r) q := by
  obtain ⟨-, -, -, -, -, -, -, -, -, -, e50, e51⟩ := idx_facts t
  refine funext fun a => Fin.ext ?_
  match a with
  | ⟨0, _⟩ => show win1_5.index t (0 : Fin 2) * 1000 + 1 * r.val = t.val * 1000 + r.val; omega
  | ⟨1, _⟩ => show win1_5.index t (1 : Fin 2) * 256 + 1 * q.val = q.val; omega

/-- The layer's value over a point's staged blocks at (r, q) is the layer of the whole arrays at (1000·t + r, q). -/
theorem entry_eq (c : Dev nD) (t : Fin cfg1.N) (r : Fin 1000) (q : Fin 256) :
    layerVal (fun r k => iblk1 V c 0 t (ix2 r k)) (fun r k => iblk1 V c 1 t (ix2 r k)) (fun k c' => iblk1 V c 2 t (ix2 k c'))
        (fun k c' => iblk1 V c 3 t (ix2 k c')) (fun c' => iblk1 V c 4 t (ix2 (0 : Fin 1) c')) r q
      = G V c (ix2 (row t r) q) :=
  layerVal_congr (fun r k => iblk1 V c 0 t (ix2 r k)) (fun r k => iblk1 V c 1 t (ix2 r k))
    (fun p k => V c main_v43 (ix2 p k)) (fun p k => V c main_v24 (ix2 p k))
    (fun k c' => iblk1 V c 2 t (ix2 k c')) (fun k c' => iblk1 V c 3 t (ix2 k c'))
    (fun k q => V c main_arg5 (ix2 k q)) (fun k q => V c main_arg7 (ix2 k q))
    (fun c' => iblk1 V c 4 t (ix2 (0 : Fin 1) c')) (fun q => V c main_v44 (ix2 (0 : Fin 1) q))
    r (row t r) q (fun k => blk_agg V c t r k) (fun k => blk_x V c t r k)
    (fun k => blk_wl V c t k q) (fun k => blk_wr V c t k q) (blk_b V c t q)

/-- What point t writes back is block t of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero offZero]
  simp only [View.ld_unit_zero (S := S1000x256) offZero, View.ld_unit_zero (S := S256x256) offZero,
    View.ld_unit_zero (S := S1x256) offZero]
  funext y
  obtain ⟨r, q, rfl⟩ : ∃ (r : Fin 1000) (q : Fin 256), y = ix2 r q := ⟨y 0, y 1, eq_ix2 y⟩
  rw [View.read_apply, emb_out t r q]
  exact (LayerBody.pay1_apply (iblk1 V c 0 t) (iblk1 V c 1 t) (iblk1 V c 2 t) (iblk1 V c 3 t) (iblk1 V c 4 t) r q).trans
    (entry_eq V c t r q)

/-- An index of the array is in point t's block iff each coordinate is in the block's range on its axis. -/
theorem mem_blk (t : Fin cfg1.N) (i : S50000x256.Idx) :
    i ∈ ((cfg1.win 5).blk t).view.set ↔ ∀ a : Fin 2, win1_5.index t a * S1000x256.size a ≤ (i a).val ∧ (i a).val < win1_5.index t a * S1000x256.size a + S1000x256.size a := by
  show i ∈ ((View.whole main_v45).slice (win1_5.rect t)).set ↔ _
  rw [View.set_slice_whole, Rect.mem_set_unit]
  exact Iff.rfl

/-- Every row lies in the block of the point numbered by its thousand. -/
theorem cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ : ∃ t : Fin cfg1.N, t.val = (i 0).val / 1000 :=
    ⟨⟨(i 0).val / 1000, lt_of_lt_of_eq (by omega : (i 0).val / 1000 < 50) N_1.symm⟩, rfl⟩
  obtain ⟨-, -, -, -, -, -, -, -, -, -, e50, e51⟩ := idx_facts t
  refine ⟨t, flush1_5 t, ?_⟩
  rw [mem_blk]
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 256 ≤ (i 1).val ∧ (i 1).val < win1_5.index t (1 : Fin 2) * 256 + 256; omega

/-- The output array after the launch is the layer of the arrays the region was entered with. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.RefAgg.lean ====
/-
  The second mean-aggregation as a function of the hidden array it aggregates. The reference gathers the hidden rows
  along the edges' sources, adds them into the edges' targets and divides by the clamped in-degree; the sources,
  targets and in-degrees are stages of the edge list alone, so the whole step is one function of the hidden array and
  the edge list, and the reference's aggregated array is that function of its first hidden array.
-/
import proofs.«175750_j79740362817955_1_alg».proof.Proof.Gen.ReferenceIdeal.Read

set_option maxRecDepth 16384

noncomputable section

namespace Cert.ReferenceIdeal.Stages

open Cert.ReferenceIdeal Cert.ReferenceIdeal.Gen Cert.ReferenceIdeal.Read Idealize.ShloMosaic

/-- The mean over each node's in-neighbours of the rows of `h`, along the edge list `x1`. -/
def agg2 (h : FVec Ideal S50000x256 .f32) (x1 : (⟨S2x800000, .i32⟩ : BufTy).Contents (Elt Ideal)) : FVec Ideal S50000x256 .f32 :=
  Host.divf (F := Ideal) (φ := .f32)
    (Host.scatterAdd (F := Ideal) (φ := .f32) scatter_S50000x256_S800000x1_S800000x256_1_0_0_1 (val_main_v41 (F := Ideal)) (val_main_v42 (F := Ideal) x1)
      (Host.gather gather_S50000x256_S800000x1_S800000x256_1_0_n_n_0_1_1256 h (val_main_v39 (F := Ideal) x1)))
    (val_main_v51 (F := Ideal) x1)

/-- The reference's aggregated hidden array is that mean of its first hidden array. -/
theorem agg2_eq (x0 : (⟨S50000x5, .f32⟩ : BufTy).Contents (Elt Ideal)) (x1 : (⟨S2x800000, .i32⟩ : BufTy).Contents (Elt Ideal)) (x2 : (⟨S5x256, .f32⟩ : BufTy).Contents (Elt Ideal)) (x3 : (⟨S256, .f32⟩ : BufTy).Contents (Elt Ideal)) (x4 : (⟨S5x256, .f32⟩ : BufTy).Contents (Elt Ideal)) :
    val_main_v52 (F := Ideal) x0 x1 x2 x3 x4 = agg2 (val_main_v29 (F := Ideal) x0 x1 x2 x3 x4) x1 := rfl

end Cert.ReferenceIdeal.Stages

end
-- ==== Proof.Entry1.lean ====
/-
  What the second launch is entered with, and hence what it leaves. The host operations between the first two launches
  compute the mean of the neighbours' hidden rows from the first launch's output and the edge list's two rows (which the
  first stretch extracted): the reference's second aggregation of that output. The bias is recast as a one-row array;
  the weights are the arguments, untouched by either stretch or by the first launch.
-/
import proofs.«175750_j79740362817955_1_alg».proof.Proof.Gen.KernelIdeal.Frame
import proofs.«175750_j79740362817955_1_alg».proof.Proof.Gen.ReferenceIdeal.Read
import proofs.«175750_j79740362817955_1_alg».proof.Proof.Region1
import proofs.«175750_j79740362817955_1_alg».proof.Proof.RefAgg
import Idealize.ShloMosaic.Lib.StableHlo.Run
import Idealize.ShloMosaic.Lib.ValueLayout

set_option maxRecDepth 16384

noncomputable section

namespace Cert.KernelIdeal.Entry1

open Cert.KernelIdeal Cert.KernelIdeal.Gen Idealize.ShloMosaic Idealize.ShloMosaic.TcCoe Idealize.SL.Sem
open Idealize.ShloMosaic.StableHlo Idealize.ShloMosaic.ValueIdx Cert.Sage

variable (m : (ℓ : Loc nD τ sig) → Buf (Elt Ideal) ℓ) (ρ : Dev nD → PrngReg) (c : Dev nD)

theorem w1_arg1 : W1 m ρ c (Proc.devRef .tc main_arg1) = m ((c : Thread nD τ).loc main_arg1) := by
  show StableHlo.after hostOps0 (W0 m ρ c) (Proc.devRef .tc main_arg1) = _
  after_results

theorem w1_arg5 : W1 m ρ c (Proc.devRef .tc main_arg5) = m ((c : Thread nD τ).loc main_arg5) := by
  show StableHlo.after hostOps0 (W0 m ρ c) (Proc.devRef .tc main_arg5) = _
  after_results

theorem w1_arg6 : W1 m ρ c (Proc.devRef .tc main_arg6) = m ((c : Thread nD τ).loc main_arg6) := by
  show StableHlo.after hostOps0 (W0 m ρ c) (Proc.devRef .tc main_arg6) = _
  after_results

theorem w1_arg7 : W1 m ρ c (Proc.devRef .tc main_arg7) = m ((c : Thread nD τ).loc main_arg7) := by
  show StableHlo.after hostOps0 (W0 m ρ c) (Proc.devRef .tc main_arg7) = _
  after_results

theorem w2_arg5 : W2 m ρ c (Proc.devRef .tc main_arg5) = m ((c : Thread nD τ).loc main_arg5) :=
  (W2_of_ne m ρ c main_arg5 (by decide)).trans (w1_arg5 m ρ c)

theorem w2_arg6 : W2 m ρ c (Proc.devRef .tc main_arg6) = m ((c : Thread nD τ).loc main_arg6) :=
  (W2_of_ne m ρ c main_arg6 (by decide)).trans (w1_arg6 m ρ c)

theorem w2_arg7 : W2 m ρ c (Proc.devRef .tc main_arg7) = m ((c : Thread nD τ).loc main_arg7) :=
  (W2_of_ne m ρ c main_arg7 (by decide)).trans (w1_arg7 m ρ c)

theorem w3_arg5 : W3 m ρ c (Proc.devRef .tc main_arg5) = m ((c : Thread nD τ).loc main_arg5) :=
  (show StableHlo.after hostOps1 (W2 m ρ c) (Proc.devRef .tc main_arg5) = W2 m ρ c (Proc.devRef .tc main_arg5) by
    after_results).trans (w2_arg5 m ρ c)

theorem w3_arg6 : W3 m ρ c (Proc.devRef .tc main_arg6) = m ((c : Thread nD τ).loc main_arg6) :=
  (show StableHlo.after hostOps1 (W2 m ρ c) (Proc.devRef .tc main_arg6) = W2 m ρ c (Proc.devRef .tc main_arg6) by
    after_results).trans (w2_arg6 m ρ c)

theorem w3_arg7 : W3 m ρ c (Proc.devRef .tc main_arg7) = m ((c : Thread nD τ).loc main_arg7) :=
  (show StableHlo.after hostOps1 (W2 m ρ c) (Proc.devRef .tc main_arg7) = W2 m ρ c (Proc.devRef .tc main_arg7) by
    after_results).trans (w2_arg7 m ρ c)

/-- The edges' sources, extracted before the first launch and untouched by it. -/
theorem src : W2 m ρ c (Proc.devRef .tc main_v1) = Cert.ReferenceIdeal.Read.val_main_v31 (F := Ideal) (m ((c : Thread nD τ).loc main_arg1)) :=
  (W2_of_ne m ρ c main_v1 (by decide)).trans (by
    show StableHlo.after hostOps0 (W0 m ρ c) (Proc.devRef .tc main_v1) = _
    after_results_simp
    rfl)

/-- The edges' targets, extracted before the first launch and untouched by it. -/
theorem dst : W2 m ρ c (Proc.devRef .tc main_v3) = Cert.ReferenceIdeal.Read.val_main_v33 (F := Ideal) (m ((c : Thread nD τ).loc main_arg1)) :=
  (W2_of_ne m ρ c main_v3 (by decide)).trans (by
    show StableHlo.after hostOps0 (W0 m ρ c) (Proc.devRef .tc main_v3) = _
    after_results_simp
    rfl)

/-- The nodes' rows the second launch reads are the first launch's output. -/
theorem hid : V3 m ρ c main_v24 = W2 m ρ c (Proc.devRef .tc main_v24) := by
  show StableHlo.after hostOps1 (W2 m ρ c) (Proc.devRef .tc main_v24) = _
  after_results

set_option maxHeartbeats 4000000 in
/-- The aggregated hidden rows are the reference's second aggregation of the first launch's output. -/
theorem agg : V3 m ρ c main_v43
    = Cert.ReferenceIdeal.Stages.agg2 (W2 m ρ c (Proc.devRef .tc main_v24)) (m ((c : Thread nD τ).loc main_arg1)) := by
  show StableHlo.after hostOps1 (W2 m ρ c) (Proc.devRef .tc main_v43) = _
  after_results_simp
  rw [src, dst]
  rfl

theorem wl : V3 m ρ c main_arg5 = m ((c : Thread nD τ).loc main_arg5) := w3_arg5 m ρ c
theorem wr : V3 m ρ c main_arg7 = m ((c : Thread nD τ).loc main_arg7) := w3_arg7 m ρ c

/-- The bias as the launch finds it: the argument recast as one row. -/
theorem biasRow : V3 m ρ c main_v44 = shapeCast S1x256 (m ((c : Thread nD τ).loc main_arg6)) shapeCasts_S256_S1x256 := by
  show StableHlo.after hostOps1 (W2 m ρ c) (Proc.devRef .tc main_v44) = _
  after_results_simp
  rw [w2_arg6]
  rfl

/-- Entry q of the bias row is entry q of the bias. -/
theorem bias (q : Fin 256) : V3 m ρ c main_v44 (ix2 (0 : Fin 1) q) = (m ((c : Thread nD τ).loc main_arg6)) (ix1 q) := by
  rw [biasRow]
  exact shapeCast_a_1a_apply _ _ 0 q

/-- The second launch leaves the second layer of the aggregated first output and that output. -/
theorem out : Region1.G (V3 m ρ) c
    = layerArr (Cert.ReferenceIdeal.Stages.agg2 (W2 m ρ c (Proc.devRef .tc main_v24)) (m ((c : Thread nD τ).loc main_arg1)))
        (W2 m ρ c (Proc.devRef .tc main_v24)) (m ((c : Thread nD τ).loc main_arg5)) (m ((c : Thread nD τ).loc main_arg7)) (fun q => (m ((c : Thread nD τ).loc main_arg6)) (ix1 q)) := by
  unfold Region1.G
  rw [agg, hid, wl, wr]
  exact congrArg (layerArr (Cert.ReferenceIdeal.Stages.agg2 (W2 m ρ c (Proc.devRef .tc main_v24)) (m ((c : Thread nD τ).loc main_arg1)))
      (W2 m ρ c (Proc.devRef .tc main_v24)) (m ((c : Thread nD τ).loc main_arg5)) (m ((c : Thread nD τ).loc main_arg7)))
    (funext fun q => bias m ρ c q)

end Cert.KernelIdeal.Entry1

end
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.LibRowMax.lean ====
/-
  The maximum along the lanes of a row, read at an index, at the exact values.

  A lane maximum of an [a, b] array started from the word of minus infinity is, at row p, the fold of `max` from that word's value
  over the row's b entries; the host's one-operand reduce with a maximum body over the same axis is the same fold from
  its initial value. Both forms are stated over `Fin b` with the entries named by their coordinates, so a row-wise
  normalization on a block of rows and on the whole array meet in one expression.
-/
import Idealize.ShloMosaic.Lib.ValueIdx
import Idealize.ShloMosaic.PureOps.Ideal.Laws
import Idealize.ShloMosaic.PureOps.Reduce

noncomputable section

namespace Cert.LibRowMax

open Idealize.ShloMosaic Idealize.ShloMosaic.ValueIdx

/-- The inserted index of a lane reduction of an [a, b] array at row p and lane k is (p, k). -/
theorem lift_row {a b : ℕ} (h : (⟨2, ![a, b]⟩ : Shape).Reduces [1] ⟨1, ![a]⟩) (p : Fin a) (k : Fin b) :
    h.lift (ix1 p) k = ix2 p k :=
  funext fun c => by
    match c with
    | ⟨0, _⟩ => exact Fin.ext rfl
    | ⟨1, _⟩ => exact Fin.ext rfl

/-- The lane maximum of an `[a, b]` array started from the word of minus infinity, at row `p`: the fold of `max`
    over the row's entries from that word's value. -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src 0xFF800000#32 h hφ hacc (ix1 p)).trans
    (congrArg (Finset.fold max (Ideal.ofBits .f32 0xFF800000#32) · Finset.univ) (funext fun k => congrArg src (lift_row h p k)))

/-- The host's reduce with a maximum body over the lanes of an `[a, b]` array, at row `p`: the fold of `max`
    over the row's entries from the initial value. -/
theorem hostMax_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) :=
  (Host.reduce_eq_fold_single (FloatOps.maximumf (F := Ideal) (φ := .f32)) x init h' h hu (ix1 p)).trans
    (congrArg (Finset.fold max (init (Shape.Idx.first hu)) · Finset.univ) (funext fun k => congrArg x (lift_row h p k)))

end Cert.LibRowMax

end
-- ==== Proof.SoftBody.lean ====
/-
  The output head's body at one entry. The body loads a block of hidden rows, the output weights whole and the bias
  as a one-row array. Its logits at (r, c) are `Σₖ h[r,k]·Wo[k,c] + bo[c]`; the row maximum (taken from minus infinity
  and compared with minus infinity once more) is subtracted, the exponential taken, and each entry divided by the sum
  of its row's exponentials: the row-wise softmax of the logits.
-/
import proofs.«175750_j79740362817955_1_alg».proof.Proof.Gen.KernelIdeal.Skeleton
import proofs.«175750_j79740362817955_1_alg».proof.Proof.Spec
import proofs.«175750_j79740362817955_1_alg».proof.Proof.LibMatmulRead
import proofs.«175750_j79740362817955_1_alg».proof.Proof.LibKeepdims
import proofs.«175750_j79740362817955_1_alg».proof.Proof.LibRowMax
import Idealize.ShloMosaic.Lib.ValueIdx
import Idealize.ShloMosaic.Lib.ValueLayout
import Idealize.ShloMosaic.Lib.Pipeline.Value

noncomputable section

open scoped BigOperators

namespace Cert.KernelIdeal.SoftBody

open Cert.KernelIdeal Cert.KernelIdeal.Gen Idealize.ShloMosaic Idealize.ShloMosaic.ValueIdx Cert.Sage

/-- The output head's product record contracts rows with columns. -/
theorem rowsByColsOut : MatmulRead.RowsByCols dot_S1000x256_S256x5_S1000x5_1_0_0_1_n_n := ⟨rfl, rfl, rfl, rfl, rfl, rfl⟩

/-- The block of logits. -/
def logitsB (x0 : Vec Ideal S1000x256 .f32) (x1 : Vec Ideal S256x5 .f32) (x2 : Vec Ideal S1x5 .f32) : FVec Ideal S1000x5 .f32 :=
  addf (matmul dot_S1000x256_S256x5_S1000x5_1_0_0_1_n_n none
      (truncf .bf16 (shapeCast S1000x256 x0 shapeCasts_S1000x256_S1000x256) bitsLt_bf16_f32)
      (truncf .bf16 x1 bitsLt_bf16_f32) (constant S1000x5 .f32 0x00000000#32))
    (broadcastTo S1000x5 (shapeCast S1x5 x2 shapeCasts_S1x5_S1x5) broadcasts_S1x5_S1000x5)

/-- Each row's maximum, repeated along the row. -/
def maxB (Z : FVec Ideal S1000x5 .f32) : FVec Ideal S1000x5 .f32 :=
  broadcastTo S1000x5 (shapeCast S1000x1
      (maximumf (broadcast S1000 (Scalar.ofBits (F := Ideal) .f32 0xFF800000#32))
        (multiReduction (F := Ideal) .maximumf [1] S1000 Z 0xFF800000#32 reduces_S1000x5_S1000 (.inl rfl) rfl))
      shapeCasts_S1000_S1000x1) broadcasts_S1000x1_S1000x5

/-- The exponentials of the entries less their row's maximum. -/
def expB (Z : FVec Ideal S1000x5 .f32) : FVec Ideal S1000x5 .f32 := exp (subf Z (maxB Z))

/-- Each exponential over its row's sum. -/
def softB (Z : FVec Ideal S1000x5 .f32) : FVec Ideal S1000x5 .f32 :=
  divf (expB Z) (broadcastTo S1000x5 (shapeCast S1000x1
      (multiReduction (F := Ideal) .add [1] S1000 (expB Z) 0x00000000#32 reduces_S1000x5_S1000 (.inl rfl) rfl)
      shapeCasts_S1000_S1000x1) broadcasts_S1000x1_S1000x5)

/-- The body's value is the softmax of its logits. -/
theorem pay2_eq (x0 : Vec Ideal S1000x256 .f32) (x1 : Vec Ideal S256x5 .f32) (x2 : Vec Ideal S1x5 .f32) :
    k2_pay1 (F := Ideal) x0 x1 x2 = softB (logitsB x0 x1 x2) := rfl

/-- A logit of the block. -/
theorem logitsB_apply (x0 : Vec Ideal S1000x256 .f32) (x1 : Vec Ideal S256x5 .f32) (x2 : Vec Ideal S1x5 .f32)
    (r : Fin 1000) (c : Fin 5) :
    logitsB x0 x1 x2 (ix2 r c)
      = logitVal (fun r k => x0 (ix2 r k)) (fun k c => x1 (ix2 k c)) (fun c => x2 (ix2 (0 : Fin 1) c)) r c := by
  unfold logitsB logitVal
  rw [addf_apply]
  unfold matmul
  rw [MatmulRead.matmul_zero_ix2 rowsByColsOut rfl rfl, broadcastTo_1b_ab_apply, shapeCast_self, shapeCast_self]
  rfl

/-- The repeated row maximum at an entry is the row's maximum. -/
theorem maxB_apply (Z : FVec Ideal S1000x5 .f32) (r : Fin 1000) (c : Fin 5) :
    maxB Z (ix2 r c) = rowMax (fun k => Z (ix2 r k)) := by
  unfold maxB rowMax
  rw [LibKeepdims.broadcastTo_a1_ab_apply, LibKeepdims.shapeCast_a_a1_apply, maximumf_apply, LibRowMax.laneMax_apply]
  rfl

/-- An exponential of the block. -/
theorem expB_apply (Z : FVec Ideal S1000x5 .f32) (r : Fin 1000) (c : Fin 5) :
    expB Z (ix2 r c) = Ideal.exp (Z (ix2 r c) - rowMax (fun k => Z (ix2 r k))) := by
  unfold expB
  show Ideal.exp (Z (ix2 r c) - maxB Z (ix2 r c)) = _
  rw [maxB_apply]

/-- The softmax of a block of logits at an entry. -/
theorem softB_apply (Z : FVec Ideal S1000x5 .f32) (r : Fin 1000) (c : Fin 5) :
    softB Z (ix2 r c) = softVal (fun r k => Z (ix2 r k)) r c := by
  unfold softB softVal
  rw [divf_apply, LibKeepdims.broadcastTo_a1_ab_apply, LibKeepdims.shapeCast_a_a1_apply, LibKeepdims.laneSum_apply,
    expB_apply]
  simp only [expB_apply]

/-- The output head's body at entry (r, c) of its block. -/
theorem pay2_apply (x0 : Vec Ideal S1000x256 .f32) (x1 : Vec Ideal S256x5 .f32) (x2 : Vec Ideal S1x5 .f32)
    (r : Fin 1000) (c : Fin 5) :
    k2_pay1 (F := Ideal) x0 x1 x2 (ix2 r c)
      = softVal (logitVal (fun r k => x0 (ix2 r k)) (fun k c => x1 (ix2 k c)) (fun c => x2 (ix2 (0 : Fin 1) c))) r c := by
  rw [pay2_eq, softB_apply]
  exact softVal_congr _ _ r r c (fun k => logitsB_apply x0 x1 x2 r k)

end Cert.KernelIdeal.SoftBody

end
-- ==== Proof.Region2.lean ====
/-
  The array the output head's launch leaves, as one function of the arrays it is entered with.

  Grid point t stages rows 1000·t … 1000·t + 999 of the hidden array, the output weights whole and the bias row, and
  writes back the same rows of the result. A row of the softmax depends on that row of the logits alone, and a logit on
  that row of the hidden array alone, so block entry (r, q) is the head's value at row 1000·t + r of the whole arrays;
  the fifty blocks tile the 50000 rows.
-/
import proofs.«175750_j79740362817955_1_alg».proof.Proof.Gen.KernelIdeal.Frame
import proofs.«175750_j79740362817955_1_alg».proof.Proof.SoftBody
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem Cert.Sage
open Idealize.ShloMosaic.Pipeline (Dat)

variable (V : (c : Dev nD) → (b : Ref sig .tc) → Buf (Elt Ideal) ((c : Thread nD τ).loc b))

theorem offZero : (![0, 0] : Fin 2 → Nat) = fun _ => 0 := funext fun a => by fin_cases a <;> rfl

/-- The printed index maps over the grid: the hidden rows and the output move one block of rows per point, the
    weights and the bias stay at block zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 50 := lt_of_lt_of_eq t.isLt N_2

/-- Row r of point t's block is row 1000·t + r of the array. -/
def row (t : Fin cfg2.N) (r : Fin 1000) : Fin 50000 := ⟨t.val * 1000 + r.val, by have := point_lt t; have := r.isLt; omega⟩

/-- The result array: the output head of the arrays the region is entered with. -/
def G (c : Dev nD) : S50000x5.Idx → EReal :=
  softArr (V c main_v45) (V c main_arg8) (fun q => V c main_v46 (ix2 (0 : Fin 1) q))

/-- The hidden rows a point stages. -/
theorem blk_h (c : Dev nD) (t : Fin cfg2.N) (r : Fin 1000) (k : Fin 256) :
    iblk2 V c 0 t (ix2 r k) = V c main_v45 (ix2 (row t r) k) := by
  show V c main_v45 (((cfg2.win 0).blk t).view.emb (ix2 r k)) = V c main_v45 (ix2 (row t r) k)
  obtain ⟨e00, e01, -⟩ := idx_facts t
  refine congrArg (V c main_v45) (funext fun a => Fin.ext ?_)
  match a with
  | ⟨0, _⟩ => show win2_0.index t (0 : Fin 2) * 1000 + 1 * r.val = t.val * 1000 + r.val; omega
  | ⟨1, _⟩ => show win2_0.index t (1 : Fin 2) * 256 + 1 * k.val = k.val; omega

/-- The output weights are staged whole at every point. -/
theorem blk_w (c : Dev nD) (t : Fin cfg2.N) (k : Fin 256) (q : Fin 5) :
    iblk2 V c 1 t (ix2 k q) = V c main_arg8 (ix2 k q) := by
  show V c main_arg8 (((cfg2.win 1).blk t).view.emb (ix2 k q)) = V c main_arg8 (ix2 k q)
  obtain ⟨-, -, e10, e11, -⟩ := idx_facts t
  refine congrArg (V c main_arg8) (funext fun a => Fin.ext ?_)
  match a with
  | ⟨0, _⟩ => show win2_1.index t (0 : Fin 2) * 256 + 1 * k.val = k.val; omega
  | ⟨1, _⟩ => show win2_1.index t (1 : Fin 2) * 5 + 1 * q.val = q.val; omega

/-- The bias row is staged whole at every point. -/
theorem blk_b (c : Dev nD) (t : Fin cfg2.N) (q : Fin 5) :
    iblk2 V c 2 t (ix2 (0 : Fin 1) q) = V c main_v46 (ix2 (0 : Fin 1) q) := by
  show V c main_v46 (((cfg2.win 2).blk t).view.emb (ix2 (0 : Fin 1) q)) = V c main_v46 (ix2 (0 : Fin 1) q)
  obtain ⟨-, -, -, -, e20, e21, -⟩ := idx_facts t
  refine congrArg (V c main_v46) (funext fun a => Fin.ext ?_)
  match a with
  | ⟨0, _⟩ => show win2_2.index t (0 : Fin 2) * 1 + 1 * 0 = 0; omega
  | ⟨1, _⟩ => show win2_2.index t (1 : Fin 2) * 5 + 1 * q.val = q.val; omega

/-- Where the output's block sits in the array. -/
theorem emb_out (t : Fin cfg2.N) (r : Fin 1000) (q : Fin 5) :
    ((cfg2.win 3).blk t).view.emb (ix2 r q) = ix2 (row t r) q := by
  obtain ⟨-, -, -, -, -, -, e30, e31⟩ := idx_facts t
  refine funext fun a => Fin.ext ?_
  match a with
  | ⟨0, _⟩ => show win2_3.index t (0 : Fin 2) * 1000 + 1 * r.val = t.val * 1000 + r.val; omega
  | ⟨1, _⟩ => show win2_3.index t (1 : Fin 2) * 5 + 1 * q.val = q.val; omega

/-- The head's value over a point's staged blocks at (r, q) is the head of the whole arrays at (1000·t + r, q). -/
theorem entry_eq (c : Dev nD) (t : Fin cfg2.N) (r : Fin 1000) (q : Fin 5) :
    softVal (logitVal (fun r k => iblk2 V c 0 t (ix2 r k)) (fun k c' => iblk2 V c 1 t (ix2 k c'))
        (fun c' => iblk2 V c 2 t (ix2 (0 : Fin 1) c'))) r q
      = G V c (ix2 (row t r) q) :=
  softVal_congr
    (logitVal (fun r k => iblk2 V c 0 t (ix2 r k)) (fun k c' => iblk2 V c 1 t (ix2 k c')) (fun c' => iblk2 V c 2 t (ix2 (0 : Fin 1) c')))
    (logitVal (fun p k => V c main_v45 (ix2 p k)) (fun k q => V c main_arg8 (ix2 k q)) (fun q => V c main_v46 (ix2 (0 : Fin 1) q)))
    r (row t r) q
    (fun j => logitVal_congr (fun r k => iblk2 V c 0 t (ix2 r k)) (fun p k => V c main_v45 (ix2 p k))
      (fun k c' => iblk2 V c 1 t (ix2 k c')) (fun k q => V c main_arg8 (ix2 k q))
      (fun c' => iblk2 V c 2 t (ix2 (0 : Fin 1) c')) (fun q => V c main_v46 (ix2 (0 : Fin 1) q))
      r (row t r) j (fun k => blk_h V c t r k) (fun k => blk_w V c t k j) (blk_b V c t j))

/-- What point t writes back is block t of the head of the whole arrays. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero offZero]
  simp only [View.ld_unit_zero (S := S1000x256) offZero, View.ld_unit_zero (S := S256x5) offZero,
    View.ld_unit_zero (S := S1x5) offZero]
  funext y
  obtain ⟨r, q, rfl⟩ : ∃ (r : Fin 1000) (q : Fin 5), y = ix2 r q := ⟨y 0, y 1, eq_ix2 y⟩
  rw [View.read_apply, emb_out t r q]
  exact (SoftBody.pay2_apply (iblk2 V c 0 t) (iblk2 V c 1 t) (iblk2 V c 2 t) r q).trans (entry_eq V c t r q)

/-- An index of the array is in point t's block iff each coordinate is in the block's range on its axis. -/
theorem mem_blk (t : Fin cfg2.N) (i : S50000x5.Idx) :
    i ∈ ((cfg2.win 3).blk t).view.set ↔ ∀ a : Fin 2, win2_3.index t a * S1000x5.size a ≤ (i a).val ∧ (i a).val < win2_3.index t a * S1000x5.size a + S1000x5.size a := by
  show i ∈ ((View.whole main_v47).slice (win2_3.rect t)).set ↔ _
  rw [View.set_slice_whole, Rect.mem_set_unit]
  exact Iff.rfl

/-- Every row lies in the block of the point numbered by its thousand. -/
theorem cover (i : S50000x5.Idx) :
    ∃ t : Fin cfg2.N, (cfg2.win 3).flush t = true ∧ i ∈ ((cfg2.win 3).blk t).view.set := by
  have hi0 : (i 0).val < 50000 := (i 0).isLt
  have hi1 : (i 1).val < 5 := (i 1).isLt
  obtain ⟨t, ht⟩ : ∃ t : Fin cfg2.N, t.val = (i 0).val / 1000 :=
    ⟨⟨(i 0).val / 1000, lt_of_lt_of_eq (by omega : (i 0).val / 1000 < 50) N_2.symm⟩, rfl⟩
  obtain ⟨-, -, -, -, -, -, e30, e31⟩ := idx_facts t
  refine ⟨t, flush2_3 t, ?_⟩
  rw [mem_blk]
  intro a
  match a with
  | ⟨0, _⟩ => show win2_3.index t (0 : Fin 2) * 1000 ≤ (i 0).val ∧ (i 0).val < win2_3.index t (0 : Fin 2) * 1000 + 1000; omega
  | ⟨1, _⟩ => show win2_3.index t (1 : Fin 2) * 5 ≤ (i 1).val ∧ (i 1).val < win2_3.index t (1 : Fin 2) * 5 + 5; omega

/-- The result array after the launch is the output head of the arrays the region was entered with. -/
theorem final (c : Dev nD) : (dat2 V c).arrAt 3 cfg2.N = G V c :=
  (dat2 V c).arrAt_eq_of_cover 3 (G V c) (fun t _ => flushed_eq V c t) (cover)

end Cert.KernelIdeal.Region2

end
-- ==== Proof.Entry2.lean ====
/-
  What the third launch is entered with, and hence what it leaves. The one host operation before it recasts the output
  bias as a one-row array; the hidden rows it reads are the second launch's output, and the output weights are the
  argument, untouched by any stretch or launch before.
-/
import proofs.«175750_j79740362817955_1_alg».proof.Proof.Gen.KernelIdeal.Frame
import proofs.«175750_j79740362817955_1_alg».proof.Proof.Gen.ReferenceIdeal.Read
import proofs.«175750_j79740362817955_1_alg».proof.Proof.Region2
import Idealize.ShloMosaic.Lib.StableHlo.Run
import Idealize.ShloMosaic.Lib.ValueLayout

set_option maxRecDepth 16384

noncomputable section

namespace Cert.KernelIdeal.Entry2

open Cert.KernelIdeal Cert.KernelIdeal.Gen Idealize.ShloMosaic Idealize.ShloMosaic.TcCoe Idealize.SL.Sem
open Idealize.ShloMosaic.StableHlo Idealize.ShloMosaic.ValueIdx Cert.Sage

variable (m : (ℓ : Loc nD τ sig) → Buf (Elt Ideal) ℓ) (ρ : Dev nD → PrngReg) (c : Dev nD)

theorem w1_arg8 : W1 m ρ c (Proc.devRef .tc main_arg8) = m ((c : Thread nD τ).loc main_arg8) := by
  show StableHlo.after hostOps0 (W0 m ρ c) (Proc.devRef .tc main_arg8) = _
  after_results

theorem w1_arg9 : W1 m ρ c (Proc.devRef .tc main_arg9) = m ((c : Thread nD τ).loc main_arg9) := by
  show StableHlo.after hostOps0 (W0 m ρ c) (Proc.devRef .tc main_arg9) = _
  after_results

theorem w2_arg8 : W2 m ρ c (Proc.devRef .tc main_arg8) = m ((c : Thread nD τ).loc main_arg8) :=
  (W2_of_ne m ρ c main_arg8 (by decide)).trans (w1_arg8 m ρ c)

theorem w2_arg9 : W2 m ρ c (Proc.devRef .tc main_arg9) = m ((c : Thread nD τ).loc main_arg9) :=
  (W2_of_ne m ρ c main_arg9 (by decide)).trans (w1_arg9 m ρ c)

theorem w3_arg8 : W3 m ρ c (Proc.devRef .tc main_arg8) = m ((c : Thread nD τ).loc main_arg8) :=
  (show StableHlo.after hostOps1 (W2 m ρ c) (Proc.devRef .tc main_arg8) = W2 m ρ c (Proc.devRef .tc main_arg8) by
    after_results).trans (w2_arg8 m ρ c)

theorem w3_arg9 : W3 m ρ c (Proc.devRef .tc main_arg9) = m ((c : Thread nD τ).loc main_arg9) :=
  (show StableHlo.after hostOps1 (W2 m ρ c) (Proc.devRef .tc main_arg9) = W2 m ρ c (Proc.devRef .tc main_arg9) by
    after_results).trans (w2_arg9 m ρ c)

theorem w4_arg8 : W4 m ρ c (Proc.devRef .tc main_arg8) = m ((c : Thread nD τ).loc main_arg8) :=
  (W4_of_ne m ρ c main_arg8 (by decide)).trans (w3_arg8 m ρ c)

theorem w4_arg9 : W4 m ρ c (Proc.devRef .tc main_arg9) = m ((c : Thread nD τ).loc main_arg9) :=
  (W4_of_ne m ρ c main_arg9 (by decide)).trans (w3_arg9 m ρ c)

/-- The hidden rows the third launch reads are the second launch's output. -/
theorem hid : V5 m ρ c main_v45 = W4 m ρ c (Proc.devRef .tc main_v45) := by
  show StableHlo.after hostOps2 (W4 m ρ c) (Proc.devRef .tc main_v45) = _
  after_results

/-- The output weights reach the third launch as launched. -/
theorem wo : V5 m ρ c main_arg8 = m ((c : Thread nD τ).loc main_arg8) :=
  (show StableHlo.after hostOps2 (W4 m ρ c) (Proc.devRef .tc main_arg8) = W4 m ρ c (Proc.devRef .tc main_arg8) by
    after_results).trans (w4_arg8 m ρ c)

/-- The bias as the launch finds it: the argument recast as one row. -/
theorem biasRow : V5 m ρ c main_v46 = shapeCast S1x5 (m ((c : Thread nD τ).loc main_arg9)) shapeCasts_S5_S1x5 := by
  show StableHlo.after hostOps2 (W4 m ρ c) (Proc.devRef .tc main_v46) = _
  after_results_simp
  rw [w4_arg9]
  rfl

/-- Entry q of the bias row is entry q of the bias. -/
theorem bias (q : Fin 5) : V5 m ρ c main_v46 (ix2 (0 : Fin 1) q) = (m ((c : Thread nD τ).loc main_arg9)) (ix1 q) := by
  rw [biasRow]
  exact shapeCast_a_1a_apply _ _ 0 q

/-- The third launch leaves the output head of the second launch's output. -/
theorem out : Region2.G (V5 m ρ) c
    = softArr (W4 m ρ c (Proc.devRef .tc main_v45)) (m ((c : Thread nD τ).loc main_arg8)) (fun q => (m ((c : Thread nD τ).loc main_arg9)) (ix1 q)) := by
  unfold Region2.G
  rw [hid, wo]
  exact congrArg (softArr (W4 m ρ c (Proc.devRef .tc main_v45)) (m ((c : Thread nD τ).loc main_arg8))) (funext fun q => bias m ρ c q)

end Cert.KernelIdeal.Entry2

end
-- ==== Proof.RefValue.lean ====
/-
  The reference, stage by stage, in the same vocabulary as the kernel's launches. Its first hidden array is the layer
  of the aggregated input features and the input features; its second the layer of the aggregated first hidden array
  and that array; its result the row-wise softmax of the second hidden array times the output weights plus the bias.
  The reference adds a layer's bias between the two products where the kernel adds it last: the same sum.
-/
import proofs.«175750_j79740362817955_1_alg».proof.Proof.Gen.ReferenceIdeal.Read
import proofs.«175750_j79740362817955_1_alg».proof.Proof.Spec
import proofs.«175750_j79740362817955_1_alg».proof.Proof.LibRowMax
import Idealize.ShloMosaic.Lib.ValueIdx

set_option maxRecDepth 16384

noncomputable section

open scoped BigOperators

namespace Cert.ReferenceIdeal.Stages

open Cert.ReferenceIdeal Cert.ReferenceIdeal.Gen Cert.ReferenceIdeal.Read Idealize.ShloMosaic Idealize.ShloMosaic.ValueIdx Cert.Sage

/-- The first hidden array is the first layer of the aggregated input features and the input features. -/
theorem hidden1 (x0 : (⟨S50000x5, .f32⟩ : BufTy).Contents (Elt Ideal)) (x1 : (⟨S2x800000, .i32⟩ : BufTy).Contents (Elt Ideal)) (x2 : (⟨S5x256, .f32⟩ : BufTy).Contents (Elt Ideal)) (x3 : (⟨S256, .f32⟩ : BufTy).Contents (Elt Ideal)) (x4 : (⟨S5x256, .f32⟩ : BufTy).Contents (Elt Ideal)) :
    val_main_v29 (F := Ideal) x0 x1 x2 x3 x4
      = layerArr (val_main_v22 (F := Ideal) x0 x1) x0 x2 x4 (fun q => x3 (ix1 q)) := by
  funext j
  obtain ⟨p, q, rfl⟩ : ∃ (p : Fin 50000) (q : Fin 256), j = ix2 p q := ⟨j 0, j 1, eq_ix2 j⟩
  rw [val_main_v29_apply, val_main_v28_apply, val_main_v26_apply, val_main_v23_apply, val_main_v25_apply,
    val_main_v24_apply, val_main_v27_apply, val_main_call0_v0_apply, val_main_call0_cst_apply]
  have e1 : ∀ k : Fin 5, lidx_main_v23 (ix2 p q) k = ix2 p k := fun k => funext fun a => Fin.ext (by match a with | ⟨0, _⟩ => rfl | ⟨1, _⟩ => rfl)
  have e2 : ∀ k : Fin 5, ridx_main_v23 (ix2 p q) k = ix2 k q := fun k => funext fun a => Fin.ext (by match a with | ⟨0, _⟩ => rfl | ⟨1, _⟩ => rfl)
  have e3 : ∀ k : Fin 5, lidx_main_v27 (ix2 p q) k = ix2 p k := fun k => funext fun a => Fin.ext (by match a with | ⟨0, _⟩ => rfl | ⟨1, _⟩ => rfl)
  have e4 : ∀ k : Fin 5, ridx_main_v27 (ix2 p q) k = ix2 k q := fun k => funext fun a => Fin.ext (by match a with | ⟨0, _⟩ => rfl | ⟨1, _⟩ => rfl)
  have e5 : idx_main_v24 (idx_main_v25 (ix2 p q)) = ix1 q := funext fun a => Fin.ext (by match a with | ⟨0, _⟩ => rfl)
  simp only [e1, e2, e3, e4, e5]
  exact layerVal_bias_between (fun p k => val_main_v22 (F := Ideal) x0 x1 (ix2 p k)) (fun p k => x0 (ix2 p k))
    (fun k q => x2 (ix2 k q)) (fun k q => x4 (ix2 k q)) (fun q => x3 (ix1 q)) p q

/-- The second hidden array is the second layer of the aggregated first hidden array and that array. -/
theorem hidden2 (x0 : (⟨S50000x5, .f32⟩ : BufTy).Contents (Elt Ideal)) (x1 : (⟨S2x800000, .i32⟩ : BufTy).Contents (Elt Ideal)) (x2 : (⟨S5x256, .f32⟩ : BufTy).Contents (Elt Ideal)) (x3 : (⟨S256, .f32⟩ : BufTy).Contents (Elt Ideal)) (x4 : (⟨S5x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) :
    val_main_v59 (F := Ideal) x0 x1 x2 x3 x4 x5 x6 x7
      = layerArr (val_main_v52 (F := Ideal) x0 x1 x2 x3 x4) (val_main_v29 (F := Ideal) x0 x1 x2 x3 x4) x5 x7 (fun q => x6 (ix1 q)) := by
  funext j
  obtain ⟨p, q, rfl⟩ : ∃ (p : Fin 50000) (q : Fin 256), j = ix2 p q := ⟨j 0, j 1, eq_ix2 j⟩
  rw [val_main_v59_apply, val_main_v58_apply, val_main_v56_apply, val_main_v53_apply, val_main_v55_apply,
    val_main_v54_apply, val_main_v57_apply, val_main_call1_v0_apply, val_main_call1_cst_apply]
  have e1 : ∀ k : Fin 256, lidx_main_v53 (ix2 p q) k = ix2 p k := fun k => funext fun a => Fin.ext (by match a with | ⟨0, _⟩ => rfl | ⟨1, _⟩ => rfl)
  have e2 : ∀ k : Fin 256, ridx_main_v53 (ix2 p q) k = ix2 k q := fun k => funext fun a => Fin.ext (by match a with | ⟨0, _⟩ => rfl | ⟨1, _⟩ => rfl)
  have e3 : ∀ k : Fin 256, lidx_main_v57 (ix2 p q) k = ix2 p k := fun k => funext fun a => Fin.ext (by match a with | ⟨0, _⟩ => rfl | ⟨1, _⟩ => rfl)
  have e4 : ∀ k : Fin 256, ridx_main_v57 (ix2 p q) k = ix2 k q := fun k => funext fun a => Fin.ext (by match a with | ⟨0, _⟩ => rfl | ⟨1, _⟩ => rfl)
  have e5 : idx_main_v54 (idx_main_v55 (ix2 p q)) = ix1 q := funext fun a => Fin.ext (by match a with | ⟨0, _⟩ => rfl)
  simp only [e1, e2, e3, e4, e5]
  exact layerVal_bias_between (fun p k => val_main_v52 (F := Ideal) x0 x1 x2 x3 x4 (ix2 p k))
    (fun p k => val_main_v29 (F := Ideal) x0 x1 x2 x3 x4 (ix2 p k))
    (fun k q => x5 (ix2 k q)) (fun k q => x7 (ix2 k q)) (fun q => x6 (ix1 q)) p q

/-- A logit of the reference. -/
theorem logit (x0 : (⟨S50000x5, .f32⟩ : BufTy).Contents (Elt Ideal)) (x1 : (⟨S2x800000, .i32⟩ : BufTy).Contents (Elt Ideal)) (x2 : (⟨S5x256, .f32⟩ : BufTy).Contents (Elt Ideal)) (x3 : (⟨S256, .f32⟩ : BufTy).Contents (Elt Ideal)) (x4 : (⟨S5x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256x5, .f32⟩ : BufTy).Contents (Elt Ideal)) (x9 : (⟨S5, .f32⟩ : BufTy).Contents (Elt Ideal)) (r : Fin 50000) (c : Fin 5) :
    val_main_v63 (F := Ideal) x0 x1 x2 x3 x4 x5 x6 x7 x8 x9 (ix2 r c)
      = logitVal (fun p k => val_main_v59 (F := Ideal) x0 x1 x2 x3 x4 x5 x6 x7 (ix2 p k)) (fun k q => x8 (ix2 k q)) (fun q => x9 (ix1 q)) r c := by
  rw [val_main_v63_apply, val_main_v60_apply, val_main_v62_apply, val_main_v61_apply]
  have e1 : ∀ k : Fin 256, lidx_main_v60 (ix2 r c) k = ix2 r k := fun k => funext fun a => Fin.ext (by match a with | ⟨0, _⟩ => rfl | ⟨1, _⟩ => rfl)
  have e2 : ∀ k : Fin 256, ridx_main_v60 (ix2 r c) k = ix2 k c := fun k => funext fun a => Fin.ext (by match a with | ⟨0, _⟩ => rfl | ⟨1, _⟩ => rfl)
  have e5 : idx_main_v61 (idx_main_v62 (ix2 r c)) = ix1 c := funext fun a => Fin.ext (by match a with | ⟨0, _⟩ => rfl)
  simp only [e1, e2, e5]
  rfl

/-- The repeated row maximum of the reference's logits at an entry is the row's maximum. -/
theorem rowMaxStage (x0 : (⟨S50000x5, .f32⟩ : BufTy).Contents (Elt Ideal)) (x1 : (⟨S2x800000, .i32⟩ : BufTy).Contents (Elt Ideal)) (x2 : (⟨S5x256, .f32⟩ : BufTy).Contents (Elt Ideal)) (x3 : (⟨S256, .f32⟩ : BufTy).Contents (Elt Ideal)) (x4 : (⟨S5x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256x5, .f32⟩ : BufTy).Contents (Elt Ideal)) (x9 : (⟨S5, .f32⟩ : BufTy).Contents (Elt Ideal)) (r : Fin 50000) (c : Fin 5) :
    val_main_v68 (F := Ideal) x0 x1 x2 x3 x4 x5 x6 x7 x8 x9 (ix2 r c)
      = rowMax (fun k => val_main_v63 (F := Ideal) x0 x1 x2 x3 x4 x5 x6 x7 x8 x9 (ix2 r k)) := by
  rw [val_main_v68_apply, val_main_v67_apply, val_main_v66_apply, val_main_v65_apply, val_main_cst_11_apply]
  have e : idx_main_v67 (idx_main_v68 (ix2 r c)) = ix1 r := funext fun a => Fin.ext (by match a with | ⟨0, _⟩ => rfl)
  rw [e]
  unfold val_main_v64 rowMax
  rw [LibRowMax.hostMax_apply _ _ reducesTo_S50000x5_S50000_d1 (by decide) h_S_ r]
  rfl

/-- An exponential of the reference. -/
theorem expStage (x0 : (⟨S50000x5, .f32⟩ : BufTy).Contents (Elt Ideal)) (x1 : (⟨S2x800000, .i32⟩ : BufTy).Contents (Elt Ideal)) (x2 : (⟨S5x256, .f32⟩ : BufTy).Contents (Elt Ideal)) (x3 : (⟨S256, .f32⟩ : BufTy).Contents (Elt Ideal)) (x4 : (⟨S5x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256x5, .f32⟩ : BufTy).Contents (Elt Ideal)) (x9 : (⟨S5, .f32⟩ : BufTy).Contents (Elt Ideal)) (r : Fin 50000) (c : Fin 5) :
    val_main_v70 (F := Ideal) x0 x1 x2 x3 x4 x5 x6 x7 x8 x9 (ix2 r c)
      = Ideal.exp (val_main_v63 (F := Ideal) x0 x1 x2 x3 x4 x5 x6 x7 x8 x9 (ix2 r c) - rowMax (fun k => val_main_v63 (F := Ideal) x0 x1 x2 x3 x4 x5 x6 x7 x8 x9 (ix2 r k))) := by
  rw [val_main_v70_apply, val_main_v69_apply, rowMaxStage, Ideal.hostUnary_exp_def, Ideal.subf_def]

/-- The reference's result is the row-wise softmax of its logits. -/
theorem result (x0 : (⟨S50000x5, .f32⟩ : BufTy).Contents (Elt Ideal)) (x1 : (⟨S2x800000, .i32⟩ : BufTy).Contents (Elt Ideal)) (x2 : (⟨S5x256, .f32⟩ : BufTy).Contents (Elt Ideal)) (x3 : (⟨S256, .f32⟩ : BufTy).Contents (Elt Ideal)) (x4 : (⟨S5x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256x5, .f32⟩ : BufTy).Contents (Elt Ideal)) (x9 : (⟨S5, .f32⟩ : BufTy).Contents (Elt Ideal)) :
    val_main_v74 (F := Ideal) x0 x1 x2 x3 x4 x5 x6 x7 x8 x9
      = softArr (val_main_v59 (F := Ideal) x0 x1 x2 x3 x4 x5 x6 x7) x8 (fun q => x9 (ix1 q)) := by
  funext j
  obtain ⟨p, q, rfl⟩ : ∃ (p : Fin 50000) (q : Fin 5), j = ix2 p q := ⟨j 0, j 1, eq_ix2 j⟩
  rw [val_main_v74_apply, val_main_v73_apply, val_main_v72_apply, val_main_v71_apply, val_main_cst_12_apply]
  have e : ∀ k : Fin 5, idx_main_v71 (idx_main_v72 (idx_main_v73 (ix2 p q))) k = ix2 p k := fun k => funext fun a => Fin.ext (by match a with | ⟨0, _⟩ => rfl | ⟨1, _⟩ => rfl)
  simp only [e, expStage]
  rw [Ideal.ofBits_def, Ideal.ofBits_zero_f32, zero_add]
  exact softVal_congr (fun r k => val_main_v63 (F := Ideal) x0 x1 x2 x3 x4 x5 x6 x7 x8 x9 (ix2 r k))
    (logitVal (fun p k => val_main_v59 (F := Ideal) x0 x1 x2 x3 x4 x5 x6 x7 (ix2 p k)) (fun k q => x8 (ix2 k q)) (fun q => x9 (ix1 q)))
    p p q (fun k => logit x0 x1 x2 x3 x4 x5 x6 x7 x8 x9 p k)

end Cert.ReferenceIdeal.Stages

end
-- ==== Proof.KernelValue.lean ====
/-
  The idealized kernel's result as a function of its arguments. Reading the run back from the last launch: the result
  buffer holds the output head of the second launch's output; that output is the second layer of the aggregated first
  output and the first output; the first output is the first layer of the aggregated input features and the input
  features. Stage by stage these are the reference's first hidden array, its second hidden array and its result, as
  functions of the same arguments.
-/
import proofs.«175750_j79740362817955_1_alg».proof.Proof.Entry0
import proofs.«175750_j79740362817955_1_alg».proof.Proof.Entry1
import proofs.«175750_j79740362817955_1_alg».proof.Proof.Entry2
import proofs.«175750_j79740362817955_1_alg».proof.Proof.RefValue
import proofs.«175750_j79740362817955_1_alg».proof.Proof.RefAgg

set_option maxRecDepth 16384

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The first launch's output is the reference's first hidden array of the same arguments. -/
theorem hidden1 : W2 m ρ c (Proc.devRef .tc main_v24)
    = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans ((Region0.final (V1 m ρ) c).trans ((Entry0.out m ρ c).trans
    (Cert.ReferenceIdeal.Stages.hidden1 (m ((c : Thread nD τ).loc main_arg0)) (m ((c : Thread nD τ).loc main_arg1)) (m ((c : Thread nD τ).loc main_arg2)) (m ((c : Thread nD τ).loc main_arg3)) (m ((c : Thread nD τ).loc main_arg4))).symm))

/-- The second launch's output is the reference's second hidden array of the same arguments. -/
theorem hidden2 : W4 m ρ c (Proc.devRef .tc main_v45)
    = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 5).trans ((Region1.final (V3 m ρ) c).trans ((Entry1.out m ρ c).trans (by
    rw [hidden1 m ρ c, ← Cert.ReferenceIdeal.Stages.agg2_eq (m ((c : Thread nD τ).loc main_arg0)) (m ((c : Thread nD τ).loc main_arg1)) (m ((c : Thread nD τ).loc main_arg2)) (m ((c : Thread nD τ).loc main_arg3)) (m ((c : Thread nD τ).loc main_arg4))]
    exact (Cert.ReferenceIdeal.Stages.hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm)))

/-- The result buffer after the run is the reference's result of the same arguments. -/
theorem result : W6 m ρ c (Proc.devRef .tc main_v47)
    = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W6_arr m ρ c 3).trans ((Region2.final (V5 m ρ) c).trans ((Entry2.out m ρ c).trans (by
    rw [hidden2 m ρ c]
    exact (Cert.ReferenceIdeal.Stages.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm)))

end Cert.KernelIdeal.Whole

end
-- ==== Proof.lean ====
/-
  The certificate of the two-layer mean-aggregation graph network: the tiled kernel (three launches over blocks of a
  thousand nodes, among host stretches that gather along the edges, scatter-add and divide by the in-degree) against
  the plain reference, on the extended reals.

  Frames. The two kernel programs' frames are the generated ones; the reference has no launch, and its frame is its
  run with the result forgotten.

  Values. The kernel's run ends with its result buffer at what the third launch's write-backs leave. Each launch
  leaves one whole-array function of the arrays it is entered with (its fifty blocks tile the rows, and a row of the
  output depends on that row of the row operands alone): a layer `max (agg · Wl + x · Wr + b) 0` twice, then the
  row-wise softmax of `h · Wo + bo`. The aggregation steps between the launches are the reference's own operations
  on the same values, and are carried as the reference's stages without being opened. The reference adds a layer's
  bias between its two products where the kernel adds it last; addition on the extended reals is commutative and
  associative, so the two agree at every input, finite or not, and the precondition is not used.

  The idealization rewrote no operation, so there is nothing to preserve beyond the program's own text.
-/
import proofs.«175750_j79740362817955_1_alg».proof.Defs
import proofs.«175750_j79740362817955_1_alg».proof.Proof.Gen.Kernel
import proofs.«175750_j79740362817955_1_alg».proof.Proof.Gen.Kernel.Frame
import proofs.«175750_j79740362817955_1_alg».proof.Proof.Gen.KernelIdeal
import proofs.«175750_j79740362817955_1_alg».proof.Proof.Gen.KernelIdeal.Frame
import proofs.«175750_j79740362817955_1_alg».proof.Proof.Gen.ReferenceIdeal
import proofs.«175750_j79740362817955_1_alg».proof.Proof.Gen.Pre_finite_inputs
import proofs.«175750_j79740362817955_1_alg».proof.Proof.Gen.ReferenceIdeal.Run
import proofs.«175750_j79740362817955_1_alg».proof.Proof.Gen.ReferenceIdeal.Read
import proofs.«175750_j79740362817955_1_alg».proof.Proof.KernelRun
import proofs.«175750_j79740362817955_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at the reference's result stage of the kernel's arguments. -/
theorem algebraic : Cert.algebraic_KernelIdeal_ReferenceIdeal := by
  intro m ρ m' ρ' _ hagree
  refine ⟨fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Whole.result m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v74_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
